-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x128x512x512 : Shape := ⟨4, ![2, 128, 512, 512]⟩
abbrev S1x128x1x1 : Shape := ⟨4, ![1, 128, 1, 1]⟩
abbrev S_ : Shape := ⟨0, ![]⟩

class Facts : Prop where
  bcast_S_S2x128x512x512 : S_.BroadcastsInDim S2x128x512x512 (![] : Fin 0 → Fin S2x128x512x512.rank)
  reducesTo_S2x128x512x512_S_d0_1_2_3 : S2x128x512x512.ReducesTo [0, 1, 2, 3] S_
  h_S_ : 0 < S_.numel
  bcast_S_S1x128x1x1 : S_.BroadcastsInDim S1x128x1x1 (![] : Fin 0 → Fin S1x128x1x1.rank)
  reducesTo_S1x128x1x1_S_d0_1_2_3 : S1x128x1x1.ReducesTo [0, 1, 2, 3] S_

variable [Facts]

def fn_part1 {F : FTy → Type} [FloatOps F] (main_arg4 : FVec F S1x128x1x1 .f32) (main_arg5 : FVec F S1x128x1x1 .f32) (main_arg6 : FVec F S1x128x1x1 .f32) (main_v13 : IVec S_ 1) (main_v16 : IVec S1x128x1x1 1) : IVec S_ 1 :=
  let main_c_5 : IVec S_ 1 := constantI S_ 1 1#1
  let main_v17 : IVec S_ 1 := (fun x v => Host.reduce IntOp.andi x v reducesTo_S1x128x1x1_S_d0_1_2_3 h_S_) main_v16 main_c_5
  let main_v18 : IVec S_ 1 := andi main_v13 main_v17
  let main_v19 : FVec F S1x128x1x1 .f32 := Host.absf main_arg4
  let main_cst_6 : FVec F S_ .f32 := constant S_ .f32 0x7F800000#32
  let main_v20 : FVec F S1x128x1x1 .f32 := broadcastInDim S1x128x1x1 ![] bcast_S_S1x128x1x1 main_cst_6
  let main_v21 : IVec S1x128x1x1 1 := cmpf .olt main_v19 main_v20
  let main_c_7 : IVec S_ 1 := constantI S_ 1 1#1
  let main_v22 : IVec S_ 1 := (fun x v => Host.reduce IntOp.andi x v reducesTo_S1x128x1x1_S_d0_1_2_3 h_S_) main_v21 main_c_7
  let main_v23 : IVec S_ 1 := andi main_v18 main_v22
  let main_v24 : FVec F S1x128x1x1 .f32 := Host.absf main_arg5
  let main_cst_8 : FVec F S_ .f32 := constant S_ .f32 0x7F800000#32
  let main_v25 : FVec F S1x128x1x1 .f32 := broadcastInDim S1x128x1x1 ![] bcast_S_S1x128x1x1 main_cst_8
  let main_v26 : IVec S1x128x1x1 1 := cmpf .olt main_v24 main_v25
  let main_c_9 : IVec S_ 1 := constantI S_ 1 1#1
  let main_v27 : IVec S_ 1 := (fun x v => Host.reduce IntOp.andi x v reducesTo_S1x128x1x1_S_d0_1_2_3 h_S_) main_v26 main_c_9
  let main_v28 : IVec S_ 1 := andi main_v23 main_v27
  let main_v29 : FVec F S1x128x1x1 .f32 := Host.absf main_arg6
  let main_cst_10 : FVec F S_ .f32 := constant S_ .f32 0x7F800000#32
  let main_v30 : FVec F S1x128x1x1 .f32 := broadcastInDim S1x128x1x1 ![] bcast_S_S1x128x1x1 main_cst_10
  let main_v31 : IVec S1x128x1x1 1 := cmpf .olt main_v29 main_v30
  let main_c_11 : IVec S_ 1 := constantI S_ 1 1#1
  let main_v32 : IVec S_ 1 := (fun x v => Host.reduce IntOp.andi x v reducesTo_S1x128x1x1_S_d0_1_2_3 h_S_) main_v31 main_c_11
  let main_v33 : IVec S_ 1 := andi main_v28 main_v32
  main_v33

def fn {F : FTy → Type} [FloatOps F] (main_arg0 : FVec F S2x128x512x512 .f32) (main_arg1 : FVec F S1x128x1x1 .f32) (main_arg2 : FVec F S1x128x1x1 .f32) (main_arg3 : FVec F S1x128x1x1 .f32) (main_arg4 : FVec F S1x128x1x1 .f32) (main_arg5 : FVec F S1x128x1x1 .f32) (main_arg6 : FVec F S1x128x1x1 .f32) : IVec S_ 1 :=
  let main_v0 : FVec F S2x128x512x512 .f32 := Host.absf main_arg0
  let main_cst : FVec F S_ .f32 := constant S_ .f32 0x7F800000#32
  let main_v1 : FVec F S2x128x512x512 .f32 := broadcastInDim S2x128x512x512 ![] bcast_S_S2x128x512x512 main_cst
  let main_v2 : IVec S2x128x512x512 1 := cmpf .olt main_v0 main_v1
  let main_c : IVec S_ 1 := constantI S_ 1 1#1
  let main_v3 : IVec S_ 1 := (fun x v => Host.reduce IntOp.andi x v reducesTo_S2x128x512x512_S_d0_1_2_3 h_S_) main_v2 main_c
  let main_v4 : FVec F S1x128x1x1 .f32 := Host.absf main_arg1
  let main_cst_0 : FVec F S_ .f32 := constant S_ .f32 0x7F800000#32
  let main_v5 : FVec F S1x128x1x1 .f32 := broadcastInDim S1x128x1x1 ![] bcast_S_S1x128x1x1 main_cst_0
  let main_v6 : IVec S1x128x1x1 1 := cmpf .olt main_v4 main_v5
  let main_c_1 : IVec S_ 1 := constantI S_ 1 1#1
  let main_v7 : IVec S_ 1 := (fun x v => Host.reduce IntOp.andi x v reducesTo_S1x128x1x1_S_d0_1_2_3 h_S_) main_v6 main_c_1
  let main_v8 : IVec S_ 1 := andi main_v3 main_v7
  let main_v9 : FVec F S1x128x1x1 .f32 := Host.absf main_arg2
  let main_cst_2 : FVec F S_ .f32 := constant S_ .f32 0x7F800000#32
  let main_v10 : FVec F S1x128x1x1 .f32 := broadcastInDim S1x128x1x1 ![] bcast_S_S1x128x1x1 main_cst_2
  let main_v11 : IVec S1x128x1x1 1 := cmpf .olt main_v9 main_v10
  let main_c_3 : IVec S_ 1 := constantI S_ 1 1#1
  let main_v12 : IVec S_ 1 := (fun x v => Host.reduce IntOp.andi x v reducesTo_S1x128x1x1_S_d0_1_2_3 h_S_) main_v11 main_c_3
  let main_v13 : IVec S_ 1 := andi main_v8 main_v12
  let main_v14 : FVec F S1x128x1x1 .f32 := Host.absf main_arg3
  let main_cst_4 : FVec F S_ .f32 := constant S_ .f32 0x7F800000#32
  let main_v15 : FVec F S1x128x1x1 .f32 := broadcastInDim S1x128x1x1 ![] bcast_S_S1x128x1x1 main_cst_4
  let main_v16 : IVec S1x128x1x1 1 := cmpf .olt main_v14 main_v15
  fn_part1 (F := F) main_arg4 main_arg5 main_arg6 main_v13 main_v16
-- ==== Kernel.lean ====
abbrev S2x128x512x512 : Shape := ⟨4, ![2, 128, 512, 512]⟩
abbrev S1x128x1x1 : Shape := ⟨4, ![1, 128, 1, 1]⟩
abbrev S2x3x128x512x512 : Shape := ⟨5, ![2, 3, 128, 512, 512]⟩
abbrev S1x4x512x512 : Shape := ⟨4, ![1, 4, 512, 512]⟩
abbrev S1x4x1x1 : Shape := ⟨4, ![1, 4, 1, 1]⟩
abbrev S1x3x4x512x512 : Shape := ⟨5, ![1, 3, 4, 512, 512]⟩
abbrev S4x512x512 : Shape := ⟨3, ![4, 512, 512]⟩
abbrev S4x512 : Shape := ⟨2, ![4, 512]⟩
abbrev S4x512x1 : Shape := ⟨3, ![4, 512, 1]⟩
abbrev S4x1x1 : Shape := ⟨3, ![4, 1, 1]⟩
abbrev S4x1x512 : Shape := ⟨3, ![4, 1, 512]⟩
abbrev S4 : Shape := ⟨1, ![4]⟩
abbrev S1x1x4x512x512 : Shape := ⟨5, ![1, 1, 4, 512, 512]⟩
abbrev S2x384x512x512 : Shape := ⟨4, ![2, 384, 512, 512]⟩

abbrev nBuf : Space → Nat
  | .hbm => 9
  | .vmem => 16
  | .smem => 0
  | _ => 0

abbrev bufTy : (tb : Table) → Fin (tcTables nBuf tb) → BufTy
  | .hbm, ⟨0, _⟩ => ⟨S2x128x512x512, .f32⟩
  | .hbm, ⟨1, _⟩ => ⟨S1x128x1x1, .f32⟩
  | .hbm, ⟨2, _⟩ => ⟨S1x128x1x1, .f32⟩
  | .hbm, ⟨3, _⟩ => ⟨S1x128x1x1, .f32⟩
  | .hbm, ⟨4, _⟩ => ⟨S1x128x1x1, .f32⟩
  | .hbm, ⟨5, _⟩ => ⟨S1x128x1x1, .f32⟩
  | .hbm, ⟨6, _⟩ => ⟨S1x128x1x1, .f32⟩
  | .hbm, ⟨7, _⟩ => ⟨S2x3x128x512x512, .f32⟩
  | .hbm, ⟨8, _⟩ => ⟨S2x384x512x512, .f32⟩
  | .local _ .vmem, ⟨0, _⟩ => ⟨S1x4x512x512, .f32⟩
  | .local _ .vmem, ⟨1, _⟩ => ⟨S1x4x512x512, .f32⟩
  | .local _ .vmem, ⟨2, _⟩ => ⟨S1x4x1x1, .f32⟩
  | .local _ .vmem, ⟨3, _⟩ => ⟨S1x4x1x1, .f32⟩
  | .local _ .vmem, ⟨4, _⟩ => ⟨S1x4x1x1, .f32⟩
  | .local _ .vmem, ⟨5, _⟩ => ⟨S1x4x1x1, .f32⟩
  | .local _ .vmem, ⟨6, _⟩ => ⟨S1x4x1x1, .f32⟩
  | .local _ .vmem, ⟨7, _⟩ => ⟨S1x4x1x1, .f32⟩
  | .local _ .vmem, ⟨8, _⟩ => ⟨S1x4x1x1, .f32⟩
  | .local _ .vmem, ⟨9, _⟩ => ⟨S1x4x1x1, .f32⟩
  | .local _ .vmem, ⟨10, _⟩ => ⟨S1x4x1x1, .f32⟩
  | .local _ .vmem, ⟨11, _⟩ => ⟨S1x4x1x1, .f32⟩
  | .local _ .vmem, ⟨12, _⟩ => ⟨S1x4x1x1, .f32⟩
  | .local _ .vmem, ⟨13, _⟩ => ⟨S1x4x1x1, .f32⟩
  | .local _ .vmem, ⟨14, _⟩ => ⟨S1x3x4x512x512, .f32⟩
  | .local _ .vmem, ⟨15, _⟩ => ⟨S1x3x4x512x512, .f32⟩
  | _, _ => ⟨S2x128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x3x4x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  inb_S1x4x512x512_S1x4x512x512_0_0_0_0 : ∀ a, (![0, 0, 0, 0] : Fin 4 → Nat) a + S1x4x512x512.size a ≤ S1x4x512x512.size a
  h_S1x4x512x512 : 0 < S1x4x512x512.numel
  shapeCasts_S1x4x512x512_S4x512x512 : S1x4x512x512.ShapeCasts S4x512x512
  reduces_S4x512x512_S4x512 : S4x512x512.Reduces [2] S4x512
  shapeCasts_S4x512_S4x512x1 : S4x512.ShapeCasts S4x512x1
  broadcasts_S4x512x1_S4x512x512 : S4x512x1.Broadcasts S4x512x512
  inb_S1x4x1x1_S1x4x1x1_0_0_0_0 : ∀ a, (![0, 0, 0, 0] : Fin 4 → Nat) a + S1x4x1x1.size a ≤ S1x4x1x1.size a
  h_S1x4x1x1 : 0 < S1x4x1x1.numel
  shapeCasts_S1x4x1x1_S4x1x1 : S1x4x1x1.ShapeCasts S4x1x1
  broadcasts_S4x1x1_S4x512x512 : S4x1x1.Broadcasts S4x512x512
  reduces_S4x512x512_S4x512_2 : S4x512x512.Reduces [1] S4x512
  shapeCasts_S4x512_S4x1x512 : S4x512.ShapeCasts S4x1x512
  broadcasts_S4x1x512_S4x512x512 : S4x1x512.Broadcasts S4x512x512
  reduces_S4x512x512_S4 : S4x512x512.Reduces [1, 2] S4
  shapeCasts_S4_S4x1x1 : S4.ShapeCasts S4x1x1
  inb_S1x3x4x512x512_S1x1x4x512x512_0_0_0_0_0 : ∀ a, (![0, 0, 0, 0, 0] : Fin 5 → Nat) a + S1x1x4x512x512.size a ≤ S1x3x4x512x512.size a
  h_S1x1x4x512x512 : 0 < S1x1x4x512x512.numel
  shapeCasts_S1x1x4x512x512_S4x512x512 : S1x1x4x512x512.ShapeCasts S4x512x512
  shapeCasts_S4x512x512_S1x1x4x512x512 : S4x512x512.ShapeCasts S1x1x4x512x512
  inb_S1x3x4x512x512_S1x1x4x512x512_0_1_0_0_0 : ∀ a, (![0, 1, 0, 0, 0] : Fin 5 → Nat) a + S1x1x4x512x512.size a ≤ S1x3x4x512x512.size a
  inb_S1x3x4x512x512_S1x1x4x512x512_0_2_0_0_0 : ∀ a, (![0, 2, 0, 0, 0] : Fin 5 → Nat) a + S1x1x4x512x512.size a ≤ S1x3x4x512x512.size a
  shapeCasts_S2x3x128x512x512_S2x384x512x512 : S2x3x128x512x512.ShapeCasts S2x384x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x512x512.size a ≤ S2x128x512x512.size a
  hwx0_0 : ∀ i : grid0.Coords, EltTy.bits .f32 = 32 ∨ (Rect.block (s := S2x128x512x512) S1x4x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x1x1.size a ≤ S1x128x1x1.size a
  hwx0_1 : ∀ i : grid0.Coords, EltTy.bits .f32 = 32 ∨ (Rect.block (s := S1x128x1x1) S1x4x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x1x1.size a ≤ S1x128x1x1.size a
  hwx0_2 : ∀ i : grid0.Coords, EltTy.bits .f32 = 32 ∨ (Rect.block (s := S1x128x1x1) S1x4x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x1x1.size a ≤ S1x128x1x1.size a
  hwx0_3 : ∀ i : grid0.Coords, EltTy.bits .f32 = 32 ∨ (Rect.block (s := S1x128x1x1) S1x4x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x1x1.size a ≤ S1x128x1x1.size a
  hwx0_4 : ∀ i : grid0.Coords, EltTy.bits .f32 = 32 ∨ (Rect.block (s := S1x128x1x1) S1x4x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x1x1.size a ≤ S1x128x1x1.size a
  hwx0_5 : ∀ i : grid0.Coords, EltTy.bits .f32 = 32 ∨ (Rect.block (s := S1x128x1x1) S1x4x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4x1x1.size a ≤ S1x128x1x1.size a
  hwx0_6 : ∀ i : grid0.Coords, EltTy.bits .f32 = 32 ∨ (Rect.block (s := S1x128x1x1) S1x4x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x3x4x512x512.size a ≤ S2x3x128x512x512.size a
  hwx0_7 : ∀ i : grid0.Coords, EltTy.bits .f32 = 32 ∨ (Rect.block (s := S2x3x128x512x512) S1x3x4x512x512.size (cc0_transform_7 i) (hinb0_7 i)).WholeWords (EltTy.packing .f32)

variable [Facts₀]

abbrev win0_0 : Pipeline.Window sig grid0 :=
  Pipeline.Window.ofSpec (Memref.whole main_arg0) S1x4x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x4x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x4x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x4x1x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x4x1x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x4x1x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x3x4x512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2x128x512x512 : Shape := ⟨4, ![2, 128, 512, 512]⟩
abbrev S1x128x1x1 : Shape := ⟨4, ![1, 128, 1, 1]⟩
abbrev S_ : Shape := ⟨0, ![]⟩
abbrev S2x128x512 : Shape := ⟨3, ![2, 128, 512]⟩
abbrev S2x128x512x1 : Shape := ⟨4, ![2, 128, 512, 1]⟩
abbrev S2x128x1x512 : Shape := ⟨4, ![2, 128, 1, 512]⟩
abbrev S2x128 : Shape := ⟨2, ![2, 128]⟩
abbrev S2x128x1x1 : Shape := ⟨4, ![2, 128, 1, 1]⟩
abbrev S2x384x512x512 : Shape := ⟨4, ![2, 384, 512, 512]⟩

abbrev nBuf : Space → Nat
  | .hbm => 98
  | .vmem => 0
  | .smem => 0
  | _ => 0

abbrev bufTy : (tb : Table) → Fin (tcTables nBuf tb) → BufTy
  | .hbm, ⟨0, _⟩ => ⟨S2x128x512x512, .f32⟩
  | .hbm, ⟨1, _⟩ => ⟨S1x128x1x1, .f32⟩
  | .hbm, ⟨2, _⟩ => ⟨S1x128x1x1, .f32⟩
  | .hbm, ⟨3, _⟩ => ⟨S1x128x1x1, .f32⟩
  | .hbm, ⟨4, _⟩ => ⟨S1x128x1x1, .f32⟩
  | .hbm, ⟨5, _⟩ => ⟨S1x128x1x1, .f32⟩
  | .hbm, ⟨6, _⟩ => ⟨S1x128x1x1, .f32⟩
  | .hbm, ⟨7, _⟩ => ⟨S_, .f32⟩
  | .hbm, ⟨8, _⟩ => ⟨S2x128x512, .f32⟩
  | .hbm, ⟨9, _⟩ => ⟨S2x128x512x1, .f32⟩
  | .hbm, ⟨10, _⟩ => ⟨S_, .f32⟩
  | .hbm, ⟨11, _⟩ => ⟨S2x128x512x1, .f32⟩
  | .hbm, ⟨12, _⟩ => ⟨S2x128x512x1, .f32⟩
  | .hbm, ⟨13, _⟩ => ⟨S2x128x512x512, .f32⟩
  | .hbm, ⟨14, _⟩ => ⟨S2x128x512x512, .f32⟩
  | .hbm, ⟨15, _⟩ => ⟨S2x128x512x512, .f32⟩
  | .hbm, ⟨16, _⟩ => ⟨S_, .f32⟩
  | .hbm, ⟨17, _⟩ => ⟨S2x128x512, .f32⟩
  | .hbm, ⟨18, _⟩ => ⟨S2x128x512x1, .f32⟩
  | .hbm, ⟨19, _⟩ => ⟨S_, .f32⟩
  | .hbm, ⟨20, _⟩ => ⟨S2x128x512x1, .f32⟩
  | .hbm, ⟨21, _⟩ => ⟨S2x128x512x1, .f32⟩
  | .hbm, ⟨22, _⟩ => ⟨S2x128x512x512, .f32⟩
  | .hbm, ⟨23, _⟩ => ⟨S2x128x512x512, .f32⟩
  | .hbm, ⟨24, _⟩ => ⟨S2x128x512x512, .f32⟩
  | .hbm, ⟨25, _⟩ => ⟨S2x128x512x512, .f32⟩
  | .hbm, ⟨26, _⟩ => ⟨S_, .f32⟩
  | .hbm, ⟨27, _⟩ => ⟨S2x128x512x1, .f32⟩
  | .hbm, ⟨28, _⟩ => ⟨S2x128x512x1, .f32⟩
  | .hbm, ⟨29, _⟩ => ⟨S2x128x512x1, .f32⟩
  | .hbm, ⟨30, _⟩ => ⟨S_, .f32⟩
  | .hbm, ⟨31, _⟩ => ⟨S2x128x512x1, .f32⟩
  | .hbm, ⟨32, _⟩ => ⟨S2x128x512x1, .f32⟩
  | .hbm, ⟨33, _⟩ => ⟨S2x128x512x512, .f32⟩
  | .hbm, ⟨34, _⟩ => ⟨S2x128x512x512, .f32⟩
  | .hbm, ⟨35, _⟩ => ⟨S2x128x512x512, .f32⟩
  | .hbm, ⟨36, _⟩ => ⟨S2x128x512x512, .f32⟩
  | .hbm, ⟨37, _⟩ => ⟨S_, .f32⟩
  | .hbm, ⟨38, _⟩ => ⟨S2x128x512, .f32⟩
  | .hbm, ⟨39, _⟩ => ⟨S2x128x1x512, .f32⟩
  | .hbm, ⟨40, _⟩ => ⟨S_, .f32⟩
  | .hbm, ⟨41, _⟩ => ⟨S2x128x1x512, .f32⟩
  | .hbm, ⟨42, _⟩ => ⟨S2x128x1x512, .f32⟩
  | .hbm, ⟨43, _⟩ => ⟨S2x128x512x512, .f32⟩
  | .hbm, ⟨44, _⟩ => ⟨S2x128x512x512, .f32⟩
  | .hbm, ⟨45, _⟩ => ⟨S2x128x512x512, .f32⟩
  | .hbm, ⟨46, _⟩ => ⟨S_, .f32⟩
  | .hbm, ⟨47, _⟩ => ⟨S2x128x512, .f32⟩
  | .hbm, ⟨48, _⟩ => ⟨S2x128x1x512, .f32⟩
  | .hbm, ⟨49, _⟩ => ⟨S_, .f32⟩
  | .hbm, ⟨50, _⟩ => ⟨S2x128x1x512, .f32⟩
  | .hbm, ⟨51, _⟩ => ⟨S2x128x1x512, .f32⟩
  | .hbm, ⟨52, _⟩ => ⟨S2x128x512x512, .f32⟩
  | .hbm, ⟨53, _⟩ => ⟨S2x128x512x512, .f32⟩
  | .hbm, ⟨54, _⟩ => ⟨S2x128x512x512, .f32⟩
  | .hbm, ⟨55, _⟩ => ⟨S2x128x512x512, .f32⟩
  | .hbm, ⟨56, _⟩ => ⟨S_, .f32⟩
  | .hbm, ⟨57, _⟩ => ⟨S2x128x1x512, .f32⟩
  | .hbm, ⟨58, _⟩ => ⟨S2x128x1x512, .f32⟩
  | .hbm, ⟨59, _⟩ => ⟨S2x128x1x512, .f32⟩
  | .hbm, ⟨60, _⟩ => ⟨S_, .f32⟩
  | .hbm, ⟨61, _⟩ => ⟨S2x128x1x512, .f32⟩
  | .hbm, ⟨62, _⟩ => ⟨S2x128x1x512, .f32⟩
  | .hbm, ⟨63, _⟩ => ⟨S2x128x512x512, .f32⟩
  | .hbm, ⟨64, _⟩ => ⟨S2x128x512x512, .f32⟩
  | .hbm, ⟨65, _⟩ => ⟨S2x128x512x512, .f32⟩
  | .hbm, ⟨66, _⟩ => ⟨S2x128x512x512, .f32⟩
  | .hbm, ⟨67, _⟩ => ⟨S_, .f32⟩
  | .hbm, ⟨68, _⟩ => ⟨S2x128, .f32⟩
  | .hbm, ⟨69, _⟩ => ⟨S2x128x1x1, .f32⟩
  | .hbm, ⟨70, _⟩ => ⟨S_, .f32⟩
  | .hbm, ⟨71, _⟩ => ⟨S2x128x1x1, .f32⟩
  | .hbm, ⟨72, _⟩ => ⟨S2x128x1x1, .f32⟩
  | .hbm, ⟨73, _⟩ => ⟨S2x128x512x512, .f32⟩
  | .hbm, ⟨74, _⟩ => ⟨S2x128x512x512, .f32⟩
  | .hbm, ⟨75, _⟩ => ⟨S2x128x512x512, .f32⟩
  | .hbm, ⟨76, _⟩ => ⟨S_, .f32⟩
  | .hbm, ⟨77, _⟩ => ⟨S2x128, .f32⟩
  | .hbm, ⟨78, _⟩ => ⟨S2x128x1x1, .f32⟩
  | .hbm, ⟨79, _⟩ => ⟨S_, .f32⟩
  | .hbm, ⟨80, _⟩ => ⟨S2x128x1x1, .f32⟩
  | .hbm, ⟨81, _⟩ => ⟨S2x128x1x1, .f32⟩
  | .hbm, ⟨82, _⟩ => ⟨S2x128x512x512, .f32⟩
  | .hbm, ⟨83, _⟩ => ⟨S2x128x512x512, .f32⟩
  | .hbm, ⟨84, _⟩ => ⟨S2x128x512x512, .f32⟩
  | .hbm, ⟨85, _⟩ => ⟨S2x128x512x512, .f32⟩
  | .hbm, ⟨86, _⟩ => ⟨S_, .f32⟩
  | .hbm, ⟨87, _⟩ => ⟨S2x128x1x1, .f32⟩
  | .hbm, ⟨88, _⟩ => ⟨S2x128x1x1, .f32⟩
  | .hbm, ⟨89, _⟩ => ⟨S2x128x1x1, .f32⟩
  | .hbm, ⟨90, _⟩ => ⟨S_, .f32⟩
  | .hbm, ⟨91, _⟩ => ⟨S2x128x1x1, .f32⟩
  | .hbm, ⟨92, _⟩ => ⟨S2x128x1x1, .f32⟩
  | .hbm, ⟨93, _⟩ => ⟨S2x128x512x512, .f32⟩
  | .hbm, ⟨94, _⟩ => ⟨S2x128x512x512, .f32⟩
  | .hbm, ⟨95, _⟩ => ⟨S2x128x512x512, .f32⟩
  | .hbm, ⟨96, _⟩ => ⟨S2x128x512x512, .f32⟩
  | .hbm, ⟨97, _⟩ => ⟨S2x384x512x512, .f32⟩
  | _, _ => ⟨S2x128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_15 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_16 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩

abbrev nD : Nat := 1
abbrev τ : Topo := Topo.v7x

variable {F : FTy → Type} [FloatOps F]

class Facts₀ : Prop where
  reducesTo_S2x128x512x512_S2x128x512_d3 : S2x128x512x512.ReducesTo [3] S2x128x512
  h_S_ : 0 < S_.numel
  bcast_S2x128x512_S2x128x512x1_0_1_2 : S2x128x512.BroadcastsInDim S2x128x512x1 (![0, 1, 2] : Fin 3 → Fin S2x128x512x1.rank)
  bcast_S_S2x128x512x1 : S_.BroadcastsInDim S2x128x512x1 (![] : Fin 0 → Fin S2x128x512x1.rank)
  bcast_S2x128x512x1_S2x128x512x512_0_1_2_3 : S2x128x512x1.BroadcastsInDim S2x128x512x512 (![0, 1, 2, 3] : Fin 4 → Fin S2x128x512x512.rank)
  bcast_S1x128x1x1_S2x128x512x512_0_1_2_3 : S1x128x1x1.BroadcastsInDim S2x128x512x512 (![0, 1, 2, 3] : Fin 4 → Fin S2x128x512x512.rank)
  reducesTo_S2x128x512x512_S2x128x512_d2 : S2x128x512x512.ReducesTo [2] S2x128x512
  bcast_S2x128x512_S2x128x1x512_0_1_3 : S2x128x512.BroadcastsInDim S2x128x1x512 (![0, 1, 3] : Fin 3 → Fin S2x128x1x512.rank)
  bcast_S_S2x128x1x512 : S_.BroadcastsInDim S2x128x1x512 (![] : Fin 0 → Fin S2x128x1x512.rank)
  bcast_S2x128x1x512_S2x128x512x512_0_1_2_3 : S2x128x1x512.BroadcastsInDim S2x128x512x512 (![0, 1, 2, 3] : Fin 4 → Fin S2x128x512x512.rank)
  reducesTo_S2x128x512x512_S2x128_d2_3 : S2x128x512x512.ReducesTo [2, 3] S2x128
  bcast_S2x128_S2x128x1x1_0_1 : S2x128.BroadcastsInDim S2x128x1x1 (![0, 1] : Fin 2 → Fin S2x128x1x1.rank)
  bcast_S_S2x128x1x1 : S_.BroadcastsInDim S2x128x1x1 (![] : Fin 0 → Fin S2x128x1x1.rank)
  bcast_S2x128x1x1_S2x128x512x512_0_1_2_3 : S2x128x1x1.BroadcastsInDim S2x128x512x512 (![0, 1, 2, 3] : Fin 4 → Fin S2x128x512x512.rank)
  concatenates_S2x128x512x512_S2x128x512x512_S2x128x512x512_S2x384x512x512_d1 : Shape.Concatenates [S2x128x512x512, S2x128x512x512, S2x128x512x512] S2x384x512x512 1

variable [Facts₀]

class Facts : Prop extends Facts₀ where

variable [Facts]
-- ==== Proof.Spec.lean ====
/-
  The function both programs compute.

  The input is a batch of stacks of 512 × 512 planes, `x[b, c, ·, ·]`, with six per-channel parameters
  (a scale and a shift for each of three normalisations).  Each plane is normalised three ways:

    * by INSTANCE: against the mean and the (biased) variance of the whole plane;
    * by ROW:      entry `(h, w)` against the mean and variance of row `h`;
    * by COLUMN:   entry `(h, w)` against the mean and variance of column `w`;

  every time as  `γ · (x − μ) / (√(v + ε) + ε) + β`  with the same `ε`.  The three results are stacked along a
  new axis in the order instance, row, column — `[b, slot, c, h, w]` — and that axis is then merged with the
  channel axis: output channel `k` is slot `k / C` of channel `k % C`.

  Everything is over the extended reals, with the divisions and the square root the exact ones; the three
  float constants (the row length 512, the plane size 262144, and ε) are kept as the bit patterns both
  programs print, so nothing here depends on what they denote.  The batch and channel extents are parameters:
  one block of the kernel is the same function at one batch entry and four channels.
-/
import Idealize.ShloMosaic.PureOps.Ideal
import Idealize.ShloMosaic.Lib.ValueIdx

noncomputable section

namespace Cert.TriNorm

open Idealize.ShloMosaic Idealize.ShloMosaic.ValueIdx

/-- ε, the row length and the plane size, as printed. -/
abbrev eps : EReal := Ideal.ofBits .f32 0x322BCC77#32
abbrev rowLen : EReal := Ideal.ofBits .f32 0x44000000#32
abbrev planeLen : EReal := Ideal.ofBits .f32 0x48800000#32

/-- One entry normalised against a mean `μ` and a variance `v`: `γ · (x − μ) / (√(v + ε) + ε) + β`. -/
def nrm (γ β x μ v : EReal) : EReal := Ideal.div (γ * (x - μ)) (Ideal.sqrt (v + eps) + eps) + β

/-- A 512 × 512 plane. -/
abbrev Plane := Fin 512 → Fin 512 → EReal

/-- Mean and biased variance of a row, of a column, of the whole plane. -/
def rowMean (p : Plane) (h : Fin 512) : EReal := Ideal.div (∑ w : Fin 512, p h w) rowLen
def rowVar (p : Plane) (h : Fin 512) : EReal :=
  Ideal.div (∑ w : Fin 512, (p h w - rowMean p h) * (p h w - rowMean p h)) rowLen
def colMean (p : Plane) (w : Fin 512) : EReal := Ideal.div (∑ h : Fin 512, p h w) rowLen
def colVar (p : Plane) (w : Fin 512) : EReal :=
  Ideal.div (∑ h : Fin 512, (p h w - colMean p w) * (p h w - colMean p w)) rowLen
def insMean (p : Plane) : EReal := Ideal.div (∑ h : Fin 512, ∑ w : Fin 512, p h w) planeLen
def insVar (p : Plane) : EReal :=
  Ideal.div (∑ h : Fin 512, ∑ w : Fin 512, (p h w - insMean p) * (p h w - insMean p)) planeLen

/-- The three normalisations of a plane's entry `(h, w)`. -/
def rowNorm (p : Plane) (γ β : EReal) (h w : Fin 512) : EReal := nrm γ β (p h w) (rowMean p h) (rowVar p h)
def colNorm (p : Plane) (γ β : EReal) (h w : Fin 512) : EReal := nrm γ β (p h w) (colMean p w) (colVar p w)
def insNorm (p : Plane) (γ β : EReal) (h w : Fin 512) : EReal := nrm γ β (p h w) (insMean p) (insVar p)

/-- The stacking order: slot 0 instance, slot 1 row, slot 2 column, each with its own scale and shift. -/
def slot (s : Fin 3) (p : Plane) (γR βR γC βC γI βI : EReal) (h w : Fin 512) : EReal :=
  match s with
  | 0 => insNorm p γI βI h w
  | 1 => rowNorm p γR βR h w
  | 2 => colNorm p γC βC h w

section Arrays
variable {B C : Nat}

/-- Plane `(b, c)` of the input, and channel `c`'s entry of a parameter array. -/
def plane (X : (⟨4, ![B, C, 512, 512]⟩ : Shape).Idx → EReal) (b : Fin B) (c : Fin C) : Plane :=
  fun h w => X (ix4 b c h w)
def par (Γ : (⟨4, ![1, C, 1, 1]⟩ : Shape).Idx → EReal) (c : Fin C) : EReal :=
  Γ (ix4 (0 : Fin 1) c (0 : Fin 1) (0 : Fin 1))

/-- The stacked result at `(b, slot, c, h, w)`. -/
def stackedAt (X : (⟨4, ![B, C, 512, 512]⟩ : Shape).Idx → EReal)
    (gR bR gC bC gI bI : (⟨4, ![1, C, 1, 1]⟩ : Shape).Idx → EReal)
    (b : Fin B) (s : Fin 3) (c : Fin C) (h w : Fin 512) : EReal :=
  slot s (plane X b c) (par gR c) (par bR c) (par gC c) (par bC c) (par gI c) (par bI c) h w

/-- The stacked result as an array `[B, 3, C, 512, 512]`. -/
def stacked (X : (⟨4, ![B, C, 512, 512]⟩ : Shape).Idx → EReal)
    (gR bR gC bC gI bI : (⟨4, ![1, C, 1, 1]⟩ : Shape).Idx → EReal) :
    (⟨5, ![B, 3, C, 512, 512]⟩ : Shape).Idx → EReal :=
  fun i => stackedAt X gR bR gC bC gI bI (i 0) (i 1) (i 2) (i 3) (i 4)

/-- The three slots, by name. -/
theorem stackedAt_zero (X : (⟨4, ![B, C, 512, 512]⟩ : Shape).Idx → EReal)
    (gR bR gC bC gI bI : (⟨4, ![1, C, 1, 1]⟩ : Shape).Idx → EReal) (b : Fin B) (c : Fin C) (h w : Fin 512) :
    stackedAt X gR bR gC bC gI bI b 0 c h w = insNorm (plane X b c) (par gI c) (par bI c) h w := rfl
theorem stackedAt_one (X : (⟨4, ![B, C, 512, 512]⟩ : Shape).Idx → EReal)
    (gR bR gC bC gI bI : (⟨4, ![1, C, 1, 1]⟩ : Shape).Idx → EReal) (b : Fin B) (c : Fin C) (h w : Fin 512) :
    stackedAt X gR bR gC bC gI bI b 1 c h w = rowNorm (plane X b c) (par gR c) (par bR c) h w := rfl
theorem stackedAt_two (X : (⟨4, ![B, C, 512, 512]⟩ : Shape).Idx → EReal)
    (gR bR gC bC gI bI : (⟨4, ![1, C, 1, 1]⟩ : Shape).Idx → EReal) (b : Fin B) (c : Fin C) (h w : Fin 512) :
    stackedAt X gR bR gC bC gI bI b 2 c h w = colNorm (plane X b c) (par gC c) (par bC c) h w := rfl

/-- The stacked result depends on the input only through the plane and on the parameters only through the
    channel's entries. -/
theorem stackedAt_congr {B' C' : Nat}
    {X : (⟨4, ![B, C, 512, 512]⟩ : Shape).Idx → EReal} {gR bR gC bC gI bI : (⟨4, ![1, C, 1, 1]⟩ : Shape).Idx → EReal}
    {X' : (⟨4, ![B', C', 512, 512]⟩ : Shape).Idx → EReal} {gR' bR' gC' bC' gI' bI' : (⟨4, ![1, C', 1, 1]⟩ : Shape).Idx → EReal}
    {b : Fin B} {c : Fin C} {b' : Fin B'} {c' : Fin C'}
    (hp : plane X b c = plane X' b' c') (h1 : par gR c = par gR' c') (h2 : par bR c = par bR' c')
    (h3 : par gC c = par gC' c') (h4 : par bC c = par bC' c') (h5 : par gI c = par gI' c') (h6 : par bI c = par bI' c')
    {s s' : Fin 3} {h h' w w' : Fin 512} (hs : s = s') (hh : h = h') (hw : w = w') :
    stackedAt X gR bR gC bC gI bI b s c h w = stackedAt X' gR' bR' gC' bC' gI' bI' b' s' c' h' w' := by
  unfold stackedAt
  rw [hp, h1, h2, h3, h4, h5, h6, hs, hh, hw]

end Arrays

/-- The result: the slot axis merged with the channel axis, `[2, 384, 512, 512]`. -/
def result (X : (⟨4, ![2, 128, 512, 512]⟩ : Shape).Idx → EReal)
    (gR bR gC bC gI bI : (⟨4, ![1, 128, 1, 1]⟩ : Shape).Idx → EReal) :
    (⟨4, ![2, 384, 512, 512]⟩ : Shape).Idx → EReal :=
  fun j => stackedAt X gR bR gC bC gI bI (j 0)
    ⟨(j 1).val / 128, by have h : (j 1).val < 384 := (j 1).isLt; omega⟩
    ⟨(j 1).val % 128, Nat.mod_lt _ (by decide)⟩ (j 2) (j 3)

/-- Output channel `128 · s + c` is slot `s` of channel `c`. -/
theorem result_apply (X : (⟨4, ![2, 128, 512, 512]⟩ : Shape).Idx → EReal)
    (gR bR gC bC gI bI : (⟨4, ![1, 128, 1, 1]⟩ : Shape).Idx → EReal)
    (b : Fin 2) (k : Fin 384) (h w : Fin 512) (s : Fin 3) (c : Fin 128) (hk : k.val = 128 * s.val + c.val) :
    result X gR bR gC bC gI bI (ix4 b k h w) = stackedAt X gR bR gC bC gI bI b s c h w := by
  have key : ∀ (s' : Fin 3) (c' : Fin 128), s' = s → c' = c →
      stackedAt X gR bR gC bC gI bI b s' c' h w = stackedAt X gR bR gC bC gI bI b s c h w := by
    rintro _ _ rfl rfl; rfl
  have hc := c.isLt
  exact key _ _ (Fin.ext (by show k.val / 128 = s.val; omega)) (Fin.ext (by show k.val % 128 = c.val; omega))

end Cert.TriNorm

end
-- ==== Proof.LibPlaneSum.lean ====
/-
  Sums over two trailing axes, read as double sums.

  A float sum that drops SEVERAL axes into a result that still has a long axis is, at the exact
  (extended-real) reading, the sum of the operand over the fibre of the coordinate-dropping map above
  the result index.  For the two shapes met here — a stack of planes `[C, H, W]` summed over its two
  plane axes into `[C]`, and a batch of such stacks `[A, B, H, W]` summed into `[A, B]` — that fibre is
  the plane itself, so the sum is the double sum over the plane's rows and columns.  Stated for any
  extents; only the rank and the dropped axes are literal.
-/
import Idealize.ShloMosaic.PureOps.Ideal.Laws
import Idealize.ShloMosaic.Lib.ValueIdx

namespace Cert.Lib.PlaneSum

open Idealize.ShloMosaic Idealize.ShloMosaic.ValueIdx

/-- A sum over the fibre of `drop` above `j` is the sum over a parameter type `β`, once `lift` is a
    section of the fibre with `proj` as its inverse there. -/
theorem sum_fiber_eq {ι κ β M : Type} [Fintype ι] [Fintype β] [AddCommMonoid M]
    (drop : ι → κ) (j : κ) [DecidablePred fun i => drop i = j] (proj : ι → β) (lift : β → ι)
    (hdl : ∀ b, drop (lift b) = j) (hlp : ∀ i, drop i = j → lift (proj i) = i) (hpl : ∀ b, proj (lift b) = b)
    (x : ι → M) :
    ∑ i ∈ Finset.univ.filter (fun i => drop i = j), x i = ∑ b : β, x (lift b) := by
  refine Finset.sum_nbij' proj lift ?_ ?_ ?_ ?_ ?_
  · intro i _; exact Finset.mem_univ _
  · intro b _; exact Finset.mem_filter.2 ⟨Finset.mem_univ _, hdl b⟩
  · intro i hi; exact hlp i (Finset.mem_filter.1 hi).2
  · intro b _; exact hpl b
  · intro i hi; rw [hlp i (Finset.mem_filter.1 hi).2]

section Rank3
variable {C H W : Nat}

/-- Which axes survive does not depend on the extents: of three axes, dropping the last two keeps the first. -/
theorem kept3 (d : Fin 3 → Nat) : Shape.kept ⟨3, d⟩ [1, 2] = [0] := by
  show (List.finRange 3).filter (fun x : Fin 3 => x ∉ ([1, 2] : List (Fin 3))) = [0]
  decide

/-- Dropping the two plane axes of `[C, H, W]` keeps the stack coordinate. -/
theorem drop3 (h : (⟨3, ![C, H, W]⟩ : Shape).Reduces [1, 2] ⟨1, ![C]⟩) (i : (⟨3, ![C, H, W]⟩ : Shape).Idx) :
    h.drop i = ix1 (i 0) := by
  funext b
  match b with
  | ⟨0, _⟩ =>
    exact Fin.ext (h.drop_apply_val_of_eq i 0 0 (by rw [kept3]; exact Nat.one_pos) (by simp only [kept3]; rfl))

/-- The fibre sum over the two plane axes of `[C, H, W]` is the double sum over the plane. -/
theorem sum_drop3 {M : Type} [AddCommMonoid M] (h : (⟨3, ![C, H, W]⟩ : Shape).Reduces [1, 2] ⟨1, ![C]⟩)
    (x : (⟨3, ![C, H, W]⟩ : Shape).Idx → M) (j : (⟨1, ![C]⟩ : Shape).Idx) :
    ∑ i ∈ Finset.univ.filter (fun i => h.drop i = j), x i = ∑ a : Fin H, ∑ b : Fin W, x (ix3 (j 0) a b) := by
  rw [sum_fiber_eq h.drop j (fun i => ((i 1 : Fin H), (i 2 : Fin W))) (fun p => ix3 (j 0) p.1 p.2)
    (fun p => by rw [drop3]; exact (eq_ix1 j).symm)
    (fun i hi => by
      have e : j 0 = i 0 := by
        have e' := congrFun hi 0
        rw [drop3] at e'
        exact e'.symm
      show ix3 (j 0) (i 1) (i 2) = i
      rw [e]; exact (eq_ix3 i).symm)
    (fun p => rfl) x]
  exact Fintype.sum_prod_type _

/-- A kernel's float sum of a stack of planes over both plane axes, at the exact reading. -/
theorem multiReduction_add_planes {φ : FTy} (src : FVec Ideal ⟨3, ![C, H, W]⟩ φ) (acc : BitVec φ.bits)
    (h : (⟨3, ![C, H, W]⟩ : Shape).Reduces [1, 2] ⟨1, ![C]⟩) (hφ : FKind.Formats φ) (hacc : acc = FKind.add.neutral φ hφ)
    (j : (⟨1, ![C]⟩ : Shape).Idx) :
    multiReduction .add [1, 2] ⟨1, ![C]⟩ src acc h hφ hacc j = ∑ a : Fin H, ∑ b : Fin W, src (ix3 (j 0) a b) :=
  sum_drop3 h src j

/-- The same at `f32` from the zero accumulator, with the accumulator's side condition stated as a printed
    program states it (the zero pattern equal to itself), at the index written by its coordinate. -/
theorem multiReduction_add_planes_f32 (src : FVec Ideal ⟨3, ![C, H, W]⟩ .f32)
    (h : (⟨3, ![C, H, W]⟩ : Shape).Reduces [1, 2] ⟨1, ![C]⟩) (hφ : FKind.Formats .f32)
    (hacc : (0x00000000#32 : BitVec 32) = 0x00000000#32) (c : Fin C) :
    multiReduction .add [1, 2] ⟨1, ![C]⟩ src 0x00000000#32 h hφ hacc (ix1 c)
      = ∑ a : Fin H, ∑ b : Fin W, src (ix3 c a b) :=
  multiReduction_add_planes src _ h hφ hacc (ix1 c)

end Rank3

section Rank4
variable {A B H W : Nat}

/-- Of four axes, dropping the last two keeps the first two. -/
theorem kept4 (d : Fin 4 → Nat) : Shape.kept ⟨4, d⟩ [2, 3] = [0, 1] := by
  show (List.finRange 4).filter (fun x : Fin 4 => x ∉ ([2, 3] : List (Fin 4))) = [0, 1]
  decide

/-- Dropping the two plane axes of `[A, B, H, W]` keeps the two leading coordinates. -/
theorem drop4 (h : (⟨4, ![A, B, H, W]⟩ : Shape).ReducesTo [2, 3] ⟨2, ![A, B]⟩) (i : (⟨4, ![A, B, H, W]⟩ : Shape).Idx) :
    h.drop i = ix2 (i 0) (i 1) := by
  funext b
  match b with
  | ⟨0, _⟩ =>
    exact Fin.ext (h.drop_apply_val_of_eq i 0 0 (by rw [kept4]; show (0 : Nat) < 2; omega) (by simp only [kept4]; rfl))
  | ⟨1, _⟩ =>
    exact Fin.ext (h.drop_apply_val_of_eq i 1 1 (by rw [kept4]; show (1 : Nat) < 2; omega) (by simp only [kept4]; rfl))

/-- The fibre sum over the two plane axes of `[A, B, H, W]` is the double sum over the plane. -/
theorem sum_drop4 {M : Type} [AddCommMonoid M] (h : (⟨4, ![A, B, H, W]⟩ : Shape).ReducesTo [2, 3] ⟨2, ![A, B]⟩)
    (x : (⟨4, ![A, B, H, W]⟩ : Shape).Idx → M) (j : (⟨2, ![A, B]⟩ : Shape).Idx) :
    ∑ i ∈ Finset.univ.filter (fun i => h.drop i = j), x i = ∑ a : Fin H, ∑ b : Fin W, x (ix4 (j 0) (j 1) a b) := by
  rw [sum_fiber_eq h.drop j (fun i => ((i 2 : Fin H), (i 3 : Fin W))) (fun p => ix4 (j 0) (j 1) p.1 p.2)
    (fun p => by rw [drop4]; exact (eq_ix2 j).symm)
    (fun i hi => by
      have e0 : j 0 = i 0 := by
        have e' := congrFun hi 0
        rw [drop4] at e'
        exact e'.symm
      have e1 : j 1 = i 1 := by
        have e' := congrFun hi 1
        rw [drop4] at e'
        exact e'.symm
      show ix4 (j 0) (j 1) (i 2) (i 3) = i
      rw [e0, e1]; exact (eq_ix4 i).symm)
    (fun p => rfl) x]
  exact Fintype.sum_prod_type _

/-- The host's float sum of a batch of stacks of planes over both plane axes, at the exact reading:
    the initial value plus the double sum over the plane. -/
theorem hostReduceAdd_planes (h : (⟨4, ![A, B, H, W]⟩ : Shape).ReducesTo [2, 3] ⟨2, ![A, B]⟩)
    (x : (⟨4, ![A, B, H, W]⟩ : Shape).Idx → EReal) (init : EReal) (j : (⟨2, ![A, B]⟩ : Shape).Idx) :
    Ideal.hostReduceAdd h x init j = init + ∑ a : Fin H, ∑ b : Fin W, x (ix4 (j 0) (j 1) a b) := by
  unfold Ideal.hostReduceAdd
  rw [sum_drop4]

end Rank4

end Cert.Lib.PlaneSum
-- ==== Proof.LibPlaneLayout.lean ====
/-
  A stack of planes `[C, H, W]` and its keepdims statistics, read at coordinates.

  A per-row statistic of a stack of planes lives in `[C, H]`, is given a trailing unit axis (`[C, H, 1]`) and is
  broadcast back over the columns; a per-column one lives in `[C, W]`, gets a middle unit axis (`[C, 1, W]`) and is
  broadcast over the rows; a per-plane one lives in `[C]`, gets two unit axes (`[C, 1, 1]`) and is broadcast over
  the whole plane.  Each of these casts and broadcasts, and the two single-axis sums that produce the statistics,
  is read here at an index written by its coordinates, for any extents.
-/
import Idealize.ShloMosaic.PureOps.Ideal.Laws
import Idealize.ShloMosaic.Lib.ValueIdx
import Idealize.ShloMosaic.Lib.Pipeline.Value

namespace Cert.Lib.PlaneLayout

open Idealize.ShloMosaic Idealize.ShloMosaic.ValueIdx

variable {α : Type} {C H W : Nat}

/-! ## Unit axes added by a shape cast -/

/-- `[C, H] → [C, H, 1]`: the entry at `(c, h, ·)` is the operand's at `(c, h)`. -/
theorem shapeCast_ch_ch1_apply (x : (⟨2, ![C, H]⟩ : Shape).Idx → α)
    (h : (⟨2, ![C, H]⟩ : Shape).ShapeCasts ⟨3, ![C, H, 1]⟩) (c : Fin C) (r : Fin H) (u : Fin 1) :
    shapeCast ⟨3, ![C, H, 1]⟩ x h (ix3 c r u) = x (ix2 c r) :=
  shapeCast_apply x h _ _ (by
    have hu : u.val = 0 := by omega
    rw [Shape.rowMajor_val_three, Shape.rowMajor_val_two]
    show c.val * H + r.val = (c.val * H + r.val) * 1 + u.val
    rw [hu, Nat.mul_one, Nat.add_zero])

/-- `[C, W] → [C, 1, W]`: the entry at `(c, ·, w)` is the operand's at `(c, w)`. -/
theorem shapeCast_cw_c1w_apply (x : (⟨2, ![C, W]⟩ : Shape).Idx → α)
    (h : (⟨2, ![C, W]⟩ : Shape).ShapeCasts ⟨3, ![C, 1, W]⟩) (c : Fin C) (u : Fin 1) (w : Fin W) :
    shapeCast ⟨3, ![C, 1, W]⟩ x h (ix3 c u w) = x (ix2 c w) :=
  shapeCast_apply x h _ _ (by
    have hu : u.val = 0 := by omega
    rw [Shape.rowMajor_val_three, Shape.rowMajor_val_two]
    show c.val * W + w.val = (c.val * 1 + u.val) * W + w.val
    rw [hu, Nat.mul_one, Nat.add_zero])

/-- `[C] → [C, 1, 1]`: the entry at `(c, ·, ·)` is the operand's at `c`. -/
theorem shapeCast_c_c11_apply (x : (⟨1, ![C]⟩ : Shape).Idx → α)
    (h : (⟨1, ![C]⟩ : Shape).ShapeCasts ⟨3, ![C, 1, 1]⟩) (c : Fin C) (u u' : Fin 1) :
    shapeCast ⟨3, ![C, 1, 1]⟩ x h (ix3 c u u') = x (ix1 c) :=
  shapeCast_apply x h _ _ (by
    have hu : u.val = 0 := by omega
    have hu' : u'.val = 0 := by omega
    rw [Shape.rowMajor_val_three, Shape.rowMajor_val_one]
    show c.val = (c.val * 1 + u.val) * 1 + u'.val
    simp only [hu, hu', Nat.mul_one, Nat.add_zero])

/-- `[C, H, W] → [1, 1, C, H, W]`: the entry at `(·, ·, c, h, w)` is the operand's at `(c, h, w)`. -/
theorem shapeCast_chw_11chw_apply (x : (⟨3, ![C, H, W]⟩ : Shape).Idx → α)
    (h : (⟨3, ![C, H, W]⟩ : Shape).ShapeCasts ⟨5, ![1, 1, C, H, W]⟩) (u u' : Fin 1) (c : Fin C) (r : Fin H) (w : Fin W) :
    shapeCast ⟨5, ![1, 1, C, H, W]⟩ x h (ix5 u u' c r w) = x (ix3 c r w) :=
  shapeCast_apply x h _ _ (by
    have hu : u.val = 0 := by omega
    have hu' : u'.val = 0 := by omega
    rw [Shape.rowMajor_val_five, Shape.rowMajor_val_three]
    show (c.val * H + r.val) * W + w.val = ((((u.val * 1 + u'.val) * C + c.val) * H + r.val) * W + w.val)
    simp only [hu, hu', Nat.zero_mul, Nat.zero_add])

/-! ## The statistics broadcast back over the plane -/

/-- `[C, H, 1] → [C, H, W]`: every column of row `(c, h)` reads the row's entry. -/
theorem broadcastTo_ch1_chw_apply (x : (⟨3, ![C, H, 1]⟩ : Shape).Idx → α)
    (h : (⟨3, ![C, H, 1]⟩ : Shape).Broadcasts ⟨3, ![C, H, W]⟩) (c : Fin C) (r : Fin H) (w : Fin W) :
    broadcastTo ⟨3, ![C, H, W]⟩ x h (ix3 c r w) = x (ix3 c r (0 : Fin 1)) :=
  broadcastTo_apply x h _ _ (fun a => match a with
    | ⟨0, _⟩ => by show c.val = if C = 1 then 0 else c.val; have := c.isLt; split <;> omega
    | ⟨1, _⟩ => by show r.val = if H = 1 then 0 else r.val; have := r.isLt; split <;> omega
    | ⟨2, _⟩ => by show 0 = if (1 : Nat) = 1 then 0 else w.val; rw [if_pos rfl])

/-- `[C, 1, W] → [C, H, W]`: every row of column `(c, w)` reads the column's entry. -/
theorem broadcastTo_c1w_chw_apply (x : (⟨3, ![C, 1, W]⟩ : Shape).Idx → α)
    (h : (⟨3, ![C, 1, W]⟩ : Shape).Broadcasts ⟨3, ![C, H, W]⟩) (c : Fin C) (r : Fin H) (w : Fin W) :
    broadcastTo ⟨3, ![C, H, W]⟩ x h (ix3 c r w) = x (ix3 c (0 : Fin 1) w) :=
  broadcastTo_apply x h _ _ (fun a => match a with
    | ⟨0, _⟩ => by show c.val = if C = 1 then 0 else c.val; have := c.isLt; split <;> omega
    | ⟨1, _⟩ => by show 0 = if (1 : Nat) = 1 then 0 else r.val; rw [if_pos rfl]
    | ⟨2, _⟩ => by show w.val = if W = 1 then 0 else w.val; have := w.isLt; split <;> omega)

/-- `[C, 1, 1] → [C, H, W]`: every entry of plane `c` reads the plane's entry. -/
theorem broadcastTo_c11_chw_apply (x : (⟨3, ![C, 1, 1]⟩ : Shape).Idx → α)
    (h : (⟨3, ![C, 1, 1]⟩ : Shape).Broadcasts ⟨3, ![C, H, W]⟩) (c : Fin C) (r : Fin H) (w : Fin W) :
    broadcastTo ⟨3, ![C, H, W]⟩ x h (ix3 c r w) = x (ix3 c (0 : Fin 1) (0 : Fin 1)) :=
  broadcastTo_apply x h _ _ (fun a => match a with
    | ⟨0, _⟩ => by show c.val = if C = 1 then 0 else c.val; have := c.isLt; split <;> omega
    | ⟨1, _⟩ => by show 0 = if (1 : Nat) = 1 then 0 else r.val; rw [if_pos rfl]
    | ⟨2, _⟩ => by show 0 = if (1 : Nat) = 1 then 0 else w.val; rw [if_pos rfl])

/-! ## The single-axis sums -/

/-- A float sum of `[C, H, W]` over its last axis, at `(c, h)`, is the sum of row `(c, h)`. -/
theorem multiReduction_add_rows {φ : FTy} (src : FVec Ideal ⟨3, ![C, H, W]⟩ φ) (acc : BitVec φ.bits)
    (h : (⟨3, ![C, H, W]⟩ : Shape).Reduces [2] ⟨2, ![C, H]⟩) (hφ : FKind.Formats φ) (hacc : acc = FKind.add.neutral φ hφ)
    (c : Fin C) (r : Fin H) :
    multiReduction .add [2] ⟨2, ![C, H]⟩ src acc h hφ hacc (ix2 c r) = ∑ w : Fin W, src (ix3 c r w) := by
  rw [Ideal.multiReduction_add_single]
  refine Finset.sum_congr rfl fun k _ => congrArg src (funext fun a => Fin.ext ?_)
  match a with
  | ⟨0, _⟩ => rfl
  | ⟨1, _⟩ => rfl
  | ⟨2, _⟩ => rfl

/-- A float sum of `[C, H, W]` over its middle axis, at `(c, w)`, is the sum of column `(c, w)`. -/
theorem multiReduction_add_cols {φ : FTy} (src : FVec Ideal ⟨3, ![C, H, W]⟩ φ) (acc : BitVec φ.bits)
    (h : (⟨3, ![C, H, W]⟩ : Shape).Reduces [1] ⟨2, ![C, W]⟩) (hφ : FKind.Formats φ) (hacc : acc = FKind.add.neutral φ hφ)
    (c : Fin C) (w : Fin W) :
    multiReduction .add [1] ⟨2, ![C, W]⟩ src acc h hφ hacc (ix2 c w) = ∑ r : Fin H, src (ix3 c r w) := by
  rw [Ideal.multiReduction_add_single]
  refine Finset.sum_congr rfl fun k _ => congrArg src (funext fun a => Fin.ext ?_)
  match a with
  | ⟨0, _⟩ => rfl
  | ⟨1, _⟩ => rfl
  | ⟨2, _⟩ => rfl

/-- The two sums at `f32` from the zero accumulator, with the accumulator's side condition stated as a printed
    program states it (the zero pattern equal to itself). -/
theorem multiReduction_add_rows_f32 (src : FVec Ideal ⟨3, ![C, H, W]⟩ .f32)
    (h : (⟨3, ![C, H, W]⟩ : Shape).Reduces [2] ⟨2, ![C, H]⟩) (hφ : FKind.Formats .f32)
    (hacc : (0x00000000#32 : BitVec 32) = 0x00000000#32) (c : Fin C) (r : Fin H) :
    multiReduction .add [2] ⟨2, ![C, H]⟩ src 0x00000000#32 h hφ hacc (ix2 c r) = ∑ w : Fin W, src (ix3 c r w) :=
  multiReduction_add_rows src _ h hφ hacc c r

theorem multiReduction_add_cols_f32 (src : FVec Ideal ⟨3, ![C, H, W]⟩ .f32)
    (h : (⟨3, ![C, H, W]⟩ : Shape).Reduces [1] ⟨2, ![C, W]⟩) (hφ : FKind.Formats .f32)
    (hacc : (0x00000000#32 : BitVec 32) = 0x00000000#32) (c : Fin C) (w : Fin W) :
    multiReduction .add [1] ⟨2, ![C, W]⟩ src 0x00000000#32 h hφ hacc (ix2 c w) = ∑ r : Fin H, src (ix3 c r w) :=
  multiReduction_add_cols src _ h hφ hacc c w

end Cert.Lib.PlaneLayout
-- ==== Proof.KernelBlock.lean ====
/-
  What one grid point's body leaves in the output block.

  At a grid point the body holds a block of four planes `x[c, ·, ·]` and the four channels' six parameters.
  It computes, for each plane, the three normalisations of every entry and stores them as the three slots
  of the output block `[1, 3, 4, 512, 512]` — slot 0 the instance norm, slot 1 the row norm, slot 2 the column
  norm.  Read entry by entry, the three stored values are exactly the specification's `insNorm`, `rowNorm`
  and `colNorm` of the plane: the kernel's sums are the row, column and plane sums, its divisions by the
  printed constants the means and variances, and the rest is the same expression.  So the whole output
  block is the specification's stacked array at one batch entry and four channels.
-/
import proofs.«148511_j81209241632974_1_alg».proof.Proof.Gen.KernelIdeal.Frame
import proofs.«148511_j81209241632974_1_alg».proof.Proof.Spec
import proofs.«148511_j81209241632974_1_alg».proof.Proof.LibPlaneSum
import proofs.«148511_j81209241632974_1_alg».proof.Proof.LibPlaneLayout
import Idealize.ShloMosaic.Lib.ValueLayout
import Idealize.ShloMosaic.Lib.Pipeline.Value

set_option maxRecDepth 16384

noncomputable section

namespace Cert.KernelIdeal.Block

open Cert.KernelIdeal Cert.KernelIdeal.Gen Idealize.ShloMosaic Idealize.ShloMosaic.ValueIdx
open Cert.TriNorm Cert.Lib.PlaneLayout Cert.Lib.PlaneSum

/-- The square root, entry by entry. -/
theorem sqrt_apply {s : Shape} {φ : FTy} (a : FVec Ideal s φ) (i : s.Idx) : sqrt a i = Ideal.sqrt (a i) := rfl

/-! ## The three means of a stack of four planes, as the body takes them

A sum over the axis (or over both plane axes), a unit axis put back, a division by the printed count. -/

def rowMeanV (v : FVec Ideal S4x512x512 .f32) : FVec Ideal S4x512x1 .f32 :=
  divf (shapeCast S4x512x1 (multiReduction .add [2] S4x512 v 0x00000000#32 reduces_S4x512x512_S4x512 (.inl rfl) rfl)
    shapeCasts_S4x512_S4x512x1) (broadcast S4x512x1 (Scalar.ofBits .f32 0x44000000#32))
def colMeanV (v : FVec Ideal S4x512x512 .f32) : FVec Ideal S4x1x512 .f32 :=
  divf (shapeCast S4x1x512 (multiReduction .add [1] S4x512 v 0x00000000#32 reduces_S4x512x512_S4x512_2 (.inl rfl) rfl)
    shapeCasts_S4x512_S4x1x512) (broadcast S4x1x512 (Scalar.ofBits .f32 0x44000000#32))
def planeMeanV (v : FVec Ideal S4x512x512 .f32) : FVec Ideal S4x1x1 .f32 :=
  divf (shapeCast S4x1x1 (multiReduction .add [1, 2] S4 v 0x00000000#32 reduces_S4x512x512_S4 (.inl rfl) rfl)
    shapeCasts_S4_S4x1x1) (broadcast S4x1x1 (Scalar.ofBits .f32 0x48800000#32))

theorem rowMeanV_apply (v : FVec Ideal S4x512x512 .f32) (c : Fin 4) (h : Fin 512) (u : Fin 1) :
    rowMeanV v (ix3 c h u) = Ideal.div (∑ w : Fin 512, v (ix3 c h w)) rowLen :=
  congrArg (fun s => Ideal.div s rowLen)
    ((shapeCast_ch_ch1_apply _ _ c h u).trans (multiReduction_add_rows_f32 v _ _ _ c h))
theorem colMeanV_apply (v : FVec Ideal S4x512x512 .f32) (c : Fin 4) (u : Fin 1) (w : Fin 512) :
    colMeanV v (ix3 c u w) = Ideal.div (∑ h : Fin 512, v (ix3 c h w)) rowLen :=
  congrArg (fun s => Ideal.div s rowLen)
    ((shapeCast_cw_c1w_apply _ _ c u w).trans (multiReduction_add_cols_f32 v _ _ _ c w))
theorem planeMeanV_apply (v : FVec Ideal S4x512x512 .f32) (c : Fin 4) (u u' : Fin 1) :
    planeMeanV v (ix3 c u u') = Ideal.div (∑ h : Fin 512, ∑ w : Fin 512, v (ix3 c h w)) planeLen :=
  congrArg (fun s => Ideal.div s planeLen)
    ((shapeCast_c_c11_apply _ _ c u u').trans (multiReduction_add_planes_f32 v _ _ _ c))

variable (x0 : Vec Ideal S1x4x512x512 .f32) (x1 x2 x3 x4 x5 x6 : Vec Ideal S1x4x1x1 .f32)

/-! ## The loaded blocks -/

/-- The loaded block with its leading unit axis dropped: plane `c` at `(h, w)`. -/
theorem planes_apply (c : Fin 4) (h w : Fin 512) :
    k0_pay4 x0 (ix3 c h w) = x0 (ix4 (0 : Fin 1) c h w) := by
  unfold k0_pay4
  exact shapeCast_1abc_abc_apply x0 _ c h w

/-- A loaded parameter block with its leading unit axis dropped, at channel `c`. -/
theorem param_apply (p : FVec Ideal S1x4x1x1 .f32) (hc : S1x4x1x1.ShapeCasts S4x1x1) (c : Fin 4) (u u' : Fin 1) :
    shapeCast S4x1x1 p hc (ix3 c u u') = p (ix4 (0 : Fin 1) c u u') :=
  shapeCast_1abc_abc_apply p _ c u u'

/-! ## Slot 1: the row norm -/

/-- The row part, with the row means named. -/
theorem rowPart_eq : k0_pay5 x0 x1 x2 =
    (let v := k0_pay4 x0
     let d := subf v (broadcastTo S4x512x512 (rowMeanV v) broadcasts_S4x512x1_S4x512x512)
     addf (divf (mulf (broadcastTo S4x512x512 (shapeCast S4x1x1 x1 shapeCasts_S1x4x1x1_S4x1x1) broadcasts_S4x1x1_S4x512x512) d)
        (broadcastTo S4x512x512 (addf (sqrt (addf (rowMeanV (mulf d d)) (broadcast S4x512x1 (Scalar.ofBits .f32 0x322BCC77#32))))
          (broadcast S4x512x1 (Scalar.ofBits .f32 0x322BCC77#32))) broadcasts_S4x512x1_S4x512x512))
      (broadcastTo S4x512x512 (shapeCast S4x1x1 x2 shapeCasts_S1x4x1x1_S4x1x1) broadcasts_S4x1x1_S4x512x512)) := rfl

theorem rowPart_apply (c : Fin 4) (h w : Fin 512) :
    k0_pay5 x0 x1 x2 (ix3 c h w) = rowNorm (plane (B := 1) (C := 4) x0 0 c) (par x1 c) (par x2 c) h w := by
  rw [rowPart_eq]
  simp only [addf_apply, divf_apply, mulf_apply, subf_apply, sqrt_apply, broadcast_apply,
    broadcastTo_ch1_chw_apply, broadcastTo_c11_chw_apply, param_apply, rowMeanV_apply, planes_apply]
  rfl

/-! ## Slot 2: the column norm -/

theorem colMean_apply (c : Fin 4) (u : Fin 1) (w : Fin 512) :
    k0_pay6 x0 (ix3 c u w) = colMean (plane (B := 1) (C := 4) x0 0 c) w := by
  rw [show k0_pay6 x0 = colMeanV (k0_pay4 x0) from rfl, colMeanV_apply]
  simp only [planes_apply]
  rfl

theorem colSqDev_apply (c : Fin 4) (h w : Fin 512) :
    k0_pay7 x0 (ix3 c h w)
      = (x0 (ix4 (0 : Fin 1) c h w) - colMean (plane (B := 1) (C := 4) x0 0 c) w)
        * (x0 (ix4 (0 : Fin 1) c h w) - colMean (plane (B := 1) (C := 4) x0 0 c) w) := by
  unfold k0_pay7
  simp only [mulf_apply, subf_apply, broadcastTo_c1w_chw_apply, planes_apply, colMean_apply]

/-- The column part, with the column mean of the squared deviations named. -/
theorem colPart_eq (v1 : FVec Ideal S4x512x512 .f32) (v33 : FVec Ideal S4x1x512 .f32) (v36 : FVec Ideal S4x512x512 .f32) :
    k0_pay8 v1 v33 v36 x3 x4 =
      addf (divf (mulf (broadcastTo S4x512x512 (shapeCast S4x1x1 x3 shapeCasts_S1x4x1x1_S4x1x1) broadcasts_S4x1x1_S4x512x512)
          (subf v1 (broadcastTo S4x512x512 v33 broadcasts_S4x1x512_S4x512x512)))
        (broadcastTo S4x512x512 (addf (sqrt (addf (colMeanV v36) (broadcast S4x1x512 (Scalar.ofBits .f32 0x322BCC77#32))))
          (broadcast S4x1x512 (Scalar.ofBits .f32 0x322BCC77#32))) broadcasts_S4x1x512_S4x512x512))
      (broadcastTo S4x512x512 (shapeCast S4x1x1 x4 shapeCasts_S1x4x1x1_S4x1x1) broadcasts_S4x1x1_S4x512x512) := rfl

theorem colPart_apply (c : Fin 4) (h w : Fin 512) :
    k0_pay8 (k0_pay4 x0) (k0_pay6 x0) (k0_pay7 x0) x3 x4 (ix3 c h w)
      = colNorm (plane (B := 1) (C := 4) x0 0 c) (par x3 c) (par x4 c) h w := by
  rw [colPart_eq]
  simp only [addf_apply, divf_apply, mulf_apply, subf_apply, sqrt_apply, broadcast_apply,
    broadcastTo_c1w_chw_apply, broadcastTo_c11_chw_apply, param_apply, colMeanV_apply, planes_apply,
    colMean_apply, colSqDev_apply]
  rfl

/-! ## Slot 0: the instance norm -/

theorem insMean_apply (c : Fin 4) (u u' : Fin 1) :
    k0_pay9 (k0_pay4 x0) (ix3 c u u') = insMean (plane (B := 1) (C := 4) x0 0 c) := by
  rw [show k0_pay9 (k0_pay4 x0) = planeMeanV (k0_pay4 x0) from rfl, planeMeanV_apply]
  simp only [planes_apply]
  rfl

theorem insNum_apply (c : Fin 4) (h w : Fin 512) :
    k0_pay10 (k0_pay4 x0) x5 (ix3 c h w)
      = par x5 c * (x0 (ix4 (0 : Fin 1) c h w) - insMean (plane (B := 1) (C := 4) x0 0 c)) := by
  unfold k0_pay10
  simp only [mulf_apply, subf_apply, broadcastTo_c11_chw_apply, param_apply, planes_apply, insMean_apply]
  rfl

/-- The variance-plus-ε part, with the plane mean of the squared deviations named. -/
theorem insVarEps_eq (v1 : FVec Ideal S4x512x512 .f32) :
    k0_pay11 v1 =
      (let d := subf v1 (broadcastTo S4x512x512 (k0_pay9 v1) broadcasts_S4x1x1_S4x512x512)
       addf (planeMeanV (mulf d d)) (broadcast S4x1x1 (Scalar.ofBits .f32 0x322BCC77#32))) := rfl

theorem insVarEps_apply (c : Fin 4) (u u' : Fin 1) :
    k0_pay11 (k0_pay4 x0) (ix3 c u u') = insVar (plane (B := 1) (C := 4) x0 0 c) + eps := by
  rw [insVarEps_eq]
  simp only [addf_apply, broadcast_apply, planeMeanV_apply, mulf_apply, subf_apply, broadcastTo_c11_chw_apply,
    planes_apply, insMean_apply]
  rfl

theorem insSlot_apply (u u' : Fin 1) (c : Fin 4) (h w : Fin 512) :
    k0_pay1 (k0_pay10 (k0_pay4 x0) x5) (k0_pay11 (k0_pay4 x0)) x6 (ix5 u u' c h w)
      = insNorm (plane (B := 1) (C := 4) x0 0 c) (par x5 c) (par x6 c) h w := by
  unfold k0_pay1
  simp only [shapeCast_chw_11chw_apply, addf_apply, divf_apply, sqrt_apply, broadcast_apply, broadcastTo_c11_chw_apply,
    param_apply, insNum_apply, insVarEps_apply]
  rfl

theorem rowSlot_apply (u u' : Fin 1) (c : Fin 4) (h w : Fin 512) :
    k0_pay2 (k0_pay5 x0 x1 x2) (ix5 u u' c h w)
      = rowNorm (plane (B := 1) (C := 4) x0 0 c) (par x1 c) (par x2 c) h w := by
  unfold k0_pay2
  rw [shapeCast_chw_11chw_apply]
  exact rowPart_apply x0 x1 x2 c h w

theorem colSlot_apply (u u' : Fin 1) (c : Fin 4) (h w : Fin 512) :
    k0_pay3 (k0_pay8 (k0_pay4 x0) (k0_pay6 x0) (k0_pay7 x0) x3 x4) (ix5 u u' c h w)
      = colNorm (plane (B := 1) (C := 4) x0 0 c) (par x3 c) (par x4 c) h w := by
  unfold k0_pay3
  rw [shapeCast_chw_11chw_apply]
  exact colPart_apply x0 x3 x4 c h w

/-! ## The whole block -/

theorem zero4 : (![0, 0, 0, 0] : Fin 4 → Nat) = fun _ => 0 := funext fun a => by fin_cases a <;> rfl

/-- Where the three stores land: slot `s` of the block, at the stored vector's own plane coordinates. -/
theorem emb_slot0 (u u' : Fin 1) (c : Fin 4) (h w : Fin 512) :
    r0_2.emb (ix5 u u' c h w) = ix5 (0 : Fin 1) (0 : Fin 3) c h w := by
  funext a; apply Fin.ext
  have hu : u.val = 0 := by omega
  have hu' : u'.val = 0 := by omega
  match a with
  | ⟨0, _⟩ => show 0 + 1 * u.val = 0; omega
  | ⟨1, _⟩ => show 0 + 1 * u'.val = 0; omega
  | ⟨2, _⟩ => show 0 + 1 * c.val = c.val; omega
  | ⟨3, _⟩ => show 0 + 1 * h.val = h.val; omega
  | ⟨4, _⟩ => show 0 + 1 * w.val = w.val; omega
theorem emb_slot1 (u u' : Fin 1) (c : Fin 4) (h w : Fin 512) :
    r0_3.emb (ix5 u u' c h w) = ix5 (0 : Fin 1) (1 : Fin 3) c h w := by
  funext a; apply Fin.ext
  have hu : u.val = 0 := by omega
  have hu' : u'.val = 0 := by omega
  match a with
  | ⟨0, _⟩ => show 0 + 1 * u.val = 0; omega
  | ⟨1, _⟩ => show 1 + 1 * u'.val = 1; omega
  | ⟨2, _⟩ => show 0 + 1 * c.val = c.val; omega
  | ⟨3, _⟩ => show 0 + 1 * h.val = h.val; omega
  | ⟨4, _⟩ => show 0 + 1 * w.val = w.val; omega
theorem emb_slot2 (u u' : Fin 1) (c : Fin 4) (h w : Fin 512) :
    r0_4.emb (ix5 u u' c h w) = ix5 (0 : Fin 1) (2 : Fin 3) c h w := by
  funext a; apply Fin.ext
  have hu : u.val = 0 := by omega
  have hu' : u'.val = 0 := by omega
  match a with
  | ⟨0, _⟩ => show 0 + 1 * u.val = 0; omega
  | ⟨1, _⟩ => show 2 + 1 * u'.val = 2; omega
  | ⟨2, _⟩ => show 0 + 1 * c.val = c.val; omega
  | ⟨3, _⟩ => show 0 + 1 * h.val = h.val; omega
  | ⟨4, _⟩ => show 0 + 1 * w.val = w.val; omega

/-- THE BLOCK: what the body leaves in the output window's buffer is the specification's stacked array of the
    loaded blocks — one batch entry, four channels. -/
theorem block_eq :
    out0_7 x0 x1 x2 x3 x4 x5 x6 = stacked (B := 1) (C := 4) x0 x1 x2 x3 x4 x5 x6 := by
  funext y
  unfold out0_7
  refine View.canon_apply_of_pieces (Val := Elt Ideal) (stacked (B := 1) (C := 4) x0 x1 x2 x3 x4 x5 x6) _ ?_ y (cover0_7 _ _ _ y)
  intro p hp x
  simp only [List.mem_cons, List.not_mem_nil, or_false] at hp
  rcases hp with rfl | rfl | rfl
  · obtain ⟨u, u', c, h, w, rfl⟩ : ∃ (u u' : Fin 1) (c : Fin 4) (h w : Fin 512), x = ix5 u u' c h w :=
      ⟨x 0, x 1, x 2, x 3, x 4, eq_ix5 x⟩
    simp only [View.ld_unit_zero (S := S1x4x512x512) zero4, View.ld_unit_zero (S := S1x4x1x1) zero4]
    rw [emb_slot2]
    exact (colSlot_apply x0 x3 x4 u u' c h w).trans (stackedAt_two x0 x1 x2 x3 x4 x5 x6 0 c h w).symm
  · obtain ⟨u, u', c, h, w, rfl⟩ : ∃ (u u' : Fin 1) (c : Fin 4) (h w : Fin 512), x = ix5 u u' c h w :=
      ⟨x 0, x 1, x 2, x 3, x 4, eq_ix5 x⟩
    simp only [View.ld_unit_zero (S := S1x4x512x512) zero4, View.ld_unit_zero (S := S1x4x1x1) zero4]
    rw [emb_slot1]
    exact (rowSlot_apply x0 x1 x2 u u' c h w).trans (stackedAt_one x0 x1 x2 x3 x4 x5 x6 0 c h w).symm
  · obtain ⟨u, u', c, h, w, rfl⟩ : ∃ (u u' : Fin 1) (c : Fin 4) (h w : Fin 512), x = ix5 u u' c h w :=
      ⟨x 0, x 1, x 2, x 3, x 4, eq_ix5 x⟩
    simp only [View.ld_unit_zero (S := S1x4x512x512) zero4, View.ld_unit_zero (S := S1x4x1x1) zero4]
    rw [emb_slot0]
    exact (insSlot_apply x0 x5 x6 u u' c h w).trans (stackedAt_zero x0 x1 x2 x3 x4 x5 x6 0 c h w).symm

end Cert.KernelIdeal.Block

end
-- ==== Proof.KernelArray.lean ====
/-
  From blocks to the array.

  The grid has one point per batch entry and per group of four channels.  At point `(b, q)` the input window
  holds planes `x[b, 4q .. 4q+3, ·, ·]`, each parameter window the same four channels' entries, and the output
  window is block `[b, all three slots, 4q .. 4q+3, ·, ·]` of the stacked array.  Since a plane's three
  normalisations depend only on that plane and its channel's parameters, what the point writes back is that
  block of the specification's stacked array of the WHOLE arguments; the blocks tile the array (every
  `(b, ·, c, ·, ·)` lies in the block of point `(b, c / 4)`), so after the run the kernel's array is the stacked array.
-/
import proofs.«148511_j81209241632974_1_alg».proof.Proof.KernelBlock

set_option maxRecDepth 16384

noncomputable section

namespace Cert.KernelIdeal.ArrayValue

open Cert.KernelIdeal Cert.KernelIdeal.Gen Idealize.ShloMosaic Idealize.ShloMosaic.TcCoe Idealize.ShloMosaic.ValueIdx
open Idealize.SL.Sem Cert.TriNorm

variable (m : (ℓ : Loc nD τ sig) → Buf (Elt Ideal) ℓ)

/-- The stacked array of the argument arrays as the region finds them. -/
abbrev stackedOf (c : Dev nD) : S2x3x128x512x512.Idx → EReal :=
  stacked (B := 2) (C := 128) (V m c main_arg0) (V m c main_arg1) (V m c main_arg2) (V m c main_arg3)
    (V m c main_arg4) (V m c main_arg5) (V m c main_arg6)

/-- The printed index maps, decided over the 64 grid points: the input window moves with the output's batch and
    channel-group coordinates and is whole on the plane axes; every parameter window moves with the channel group
    only; the output window is whole on the slot and plane axes; the batch coordinate is at most 1 and the channel
    group at most 31. -/
theorem idx_facts : ∀ t : Fin cfg0.N,
    (win0_0.index t (0 : Fin 4) = win0_7.index t (0 : Fin 5) ∧ win0_0.index t (1 : Fin 4) = win0_7.index t (2 : Fin 5)
      ∧ win0_0.index t (2 : Fin 4) = 0 ∧ win0_0.index t (3 : Fin 4) = 0)
    ∧ (win0_1.index t (0 : Fin 4) = 0 ∧ win0_1.index t (1 : Fin 4) = win0_7.index t (2 : Fin 5) ∧ win0_1.index t (2 : Fin 4) = 0 ∧ win0_1.index t (3 : Fin 4) = 0)
    ∧ (win0_2.index t (0 : Fin 4) = 0 ∧ win0_2.index t (1 : Fin 4) = win0_7.index t (2 : Fin 5) ∧ win0_2.index t (2 : Fin 4) = 0 ∧ win0_2.index t (3 : Fin 4) = 0)
    ∧ (win0_3.index t (0 : Fin 4) = 0 ∧ win0_3.index t (1 : Fin 4) = win0_7.index t (2 : Fin 5) ∧ win0_3.index t (2 : Fin 4) = 0 ∧ win0_3.index t (3 : Fin 4) = 0)
    ∧ (win0_4.index t (0 : Fin 4) = 0 ∧ win0_4.index t (1 : Fin 4) = win0_7.index t (2 : Fin 5) ∧ win0_4.index t (2 : Fin 4) = 0 ∧ win0_4.index t (3 : Fin 4) = 0)
    ∧ (win0_5.index t (0 : Fin 4) = 0 ∧ win0_5.index t (1 : Fin 4) = win0_7.index t (2 : Fin 5) ∧ win0_5.index t (2 : Fin 4) = 0 ∧ win0_5.index t (3 : Fin 4) = 0)
    ∧ (win0_6.index t (0 : Fin 4) = 0 ∧ win0_6.index t (1 : Fin 4) = win0_7.index t (2 : Fin 5) ∧ win0_6.index t (2 : Fin 4) = 0 ∧ win0_6.index t (3 : Fin 4) = 0)
    ∧ (win0_7.index t (1 : Fin 5) = 0 ∧ win0_7.index t (3 : Fin 5) = 0 ∧ win0_7.index t (4 : Fin 5) = 0
      ∧ win0_7.index t (0 : Fin 5) ≤ 1 ∧ win0_7.index t (2 : Fin 5) ≤ 31) :=
  (by decide +kernel : ∀ t : Fin grid0.N, _)

/-- Every (batch entry, channel group) is some point's. -/
theorem idx_onto : ∀ (q0 : Fin 2) (q2 : Fin 32), ∃ t : Fin cfg0.N, win0_7.index t = ![q0.val, 0, q2.val, 0, 0] :=
  (by decide +kernel : ∀ (q0 : Fin 2) (q2 : Fin 32), ∃ t : Fin grid0.N, win0_7.index t = ![q0.val, 0, q2.val, 0, 0])

/-- ONE POINT, over plain variables: if the loaded blocks are planes `4q .. 4q+3` of batch entry `p` and those
    channels' parameters, the stacked array of the blocks at a block index is the stacked array of the whole
    arguments at the index the block index lands on. -/
theorem point_eq (X : (⟨4, ![2, 128, 512, 512]⟩ : Shape).Idx → EReal)
    (G1 G2 G3 G4 G5 G6 : (⟨4, ![1, 128, 1, 1]⟩ : Shape).Idx → EReal)
    (x0 : (⟨4, ![1, 4, 512, 512]⟩ : Shape).Idx → EReal) (x1 x2 x3 x4 x5 x6 : (⟨4, ![1, 4, 1, 1]⟩ : Shape).Idx → EReal)
    (p : Fin 2) (ch : Fin 4 → Fin 128)
    (h0 : ∀ (cc : Fin 4) (h w : Fin 512), x0 (ix4 (0 : Fin 1) cc h w) = X (ix4 p (ch cc) h w))
    (h1 : ∀ cc : Fin 4, x1 (ix4 (0 : Fin 1) cc (0 : Fin 1) (0 : Fin 1)) = G1 (ix4 (0 : Fin 1) (ch cc) (0 : Fin 1) (0 : Fin 1)))
    (h2 : ∀ cc : Fin 4, x2 (ix4 (0 : Fin 1) cc (0 : Fin 1) (0 : Fin 1)) = G2 (ix4 (0 : Fin 1) (ch cc) (0 : Fin 1) (0 : Fin 1)))
    (h3 : ∀ cc : Fin 4, x3 (ix4 (0 : Fin 1) cc (0 : Fin 1) (0 : Fin 1)) = G3 (ix4 (0 : Fin 1) (ch cc) (0 : Fin 1) (0 : Fin 1)))
    (h4 : ∀ cc : Fin 4, x4 (ix4 (0 : Fin 1) cc (0 : Fin 1) (0 : Fin 1)) = G4 (ix4 (0 : Fin 1) (ch cc) (0 : Fin 1) (0 : Fin 1)))
    (h5 : ∀ cc : Fin 4, x5 (ix4 (0 : Fin 1) cc (0 : Fin 1) (0 : Fin 1)) = G5 (ix4 (0 : Fin 1) (ch cc) (0 : Fin 1) (0 : Fin 1)))
    (h6 : ∀ cc : Fin 4, x6 (ix4 (0 : Fin 1) cc (0 : Fin 1) (0 : Fin 1)) = G6 (ix4 (0 : Fin 1) (ch cc) (0 : Fin 1) (0 : Fin 1)))
    (u : Fin 1) (s : Fin 3) (cc : Fin 4) (h w : Fin 512) :
    stacked (B := 1) (C := 4) x0 x1 x2 x3 x4 x5 x6 (ix5 u s cc h w)
      = stacked (B := 2) (C := 128) X G1 G2 G3 G4 G5 G6 (ix5 p s (ch cc) h w) := by
  have hu : u = 0 := Fin.ext (by omega)
  subst hu
  exact stackedAt_congr (funext fun a => funext fun b => h0 cc a b) (h1 cc) (h2 cc) (h3 cc) (h4 cc) (h5 cc) (h6 cc)
    rfl rfl rfl

/-- WHAT POINT `t` WRITES BACK is block `t` of the stacked array of the arguments as the region finds them. -/
theorem flushed_eq (c : Dev nD) (t : Fin cfg0.N) :
    (dats m 0 c).flushed 7 t = ((cfg0.win 7).blk t).view.read (Elt Ideal) (stackedOf m c) := by
  show (cfg0.win 7).cut (grid0.coords t) ((dats m 0 c).after 7 t) = _
  rw [after0_7]
  obtain ⟨⟨a0, a1, a2, a3⟩, ⟨b0, b1, b2, b3⟩, ⟨c0, c1, c2, c3⟩, ⟨d0, d1, d2, d3⟩, ⟨e0, e1, e2, e3⟩, ⟨f0, f1, f2, f3⟩,
    ⟨g0, g1, g2, g3⟩, ⟨o1, o3, o4, le0, le2⟩⟩ := idx_facts t
  funext y
  have hy0 : (y 0).val < 1 := (y 0).isLt
  have hy1 : (y 1).val < 3 := (y 1).isLt
  have hy2 : (y 2).val < 4 := (y 2).isLt
  have hy3 : (y 3).val < 512 := (y 3).isLt
  have hy4 : (y 4).val < 512 := (y 4).isLt
  -- the batch entry and the channels of this point
  let p : Fin 2 := ⟨win0_7.index t (0 : Fin 5), by omega⟩
  let ch : Fin 4 → Fin 128 := fun cc => ⟨win0_7.index t (2 : Fin 5) * 4 + cc.val, by have := cc.isLt; omega⟩
  -- the block index, and the array index it lands on, by coordinates
  have hx : (cfg0.win 7).xinj (grid0.coords t) y
      = ix5 (⟨(y 0).val, hy0⟩ : Fin 1) (⟨(y 1).val, hy1⟩ : Fin 3) (⟨(y 2).val, hy2⟩ : Fin 4)
          (⟨(y 3).val, hy3⟩ : Fin 512) (⟨(y 4).val, hy4⟩ : Fin 512) := by
    funext a
    match a with
    | ⟨0, _⟩ => rfl
    | ⟨1, _⟩ => rfl
    | ⟨2, _⟩ => rfl
    | ⟨3, _⟩ => rfl
    | ⟨4, _⟩ => rfl
  have hemb : ((cfg0.win 7).blk t).view.emb y
      = ix5 p (⟨(y 1).val, hy1⟩ : Fin 3) (ch ⟨(y 2).val, hy2⟩) (⟨(y 3).val, hy3⟩ : Fin 512) (⟨(y 4).val, hy4⟩ : Fin 512) := by
    funext a; apply Fin.ext
    match a with
    | ⟨0, _⟩ => show win0_7.index t (0 : Fin 5) * 1 + 1 * (y 0).val = win0_7.index t (0 : Fin 5); omega
    | ⟨1, _⟩ => show win0_7.index t (1 : Fin 5) * 3 + 1 * (y 1).val = (y 1).val; omega
    | ⟨2, _⟩ => show win0_7.index t (2 : Fin 5) * 4 + 1 * (y 2).val = win0_7.index t (2 : Fin 5) * 4 + (y 2).val; omega
    | ⟨3, _⟩ => show win0_7.index t (3 : Fin 5) * 512 + 1 * (y 3).val = (y 3).val; omega
    | ⟨4, _⟩ => show win0_7.index t (4 : Fin 5) * 512 + 1 * (y 4).val = (y 4).val; omega
  show out0_7 (iblk m c 0 t) (iblk m c 1 t) (iblk m c 2 t) (iblk m c 3 t) (iblk m c 4 t) (iblk m c 5 t) (iblk m c 6 t)
      ((cfg0.win 7).xinj (grid0.coords t) y) = stackedOf m c (((cfg0.win 7).blk t).view.emb y)
  rw [hx, hemb]
  refine (congrFun (Block.block_eq (iblk m c 0 t) (iblk m c 1 t) (iblk m c 2 t) (iblk m c 3 t) (iblk m c 4 t)
    (iblk m c 5 t) (iblk m c 6 t)) _).trans ?_
  refine point_eq (V m c main_arg0) (V m c main_arg1) (V m c main_arg2) (V m c main_arg3) (V m c main_arg4)
    (V m c main_arg5) (V m c main_arg6) (iblk m c 0 t) (iblk m c 1 t) (iblk m c 2 t) (iblk m c 3 t) (iblk m c 4 t)
    (iblk m c 5 t) (iblk m c 6 t) p ch ?_ ?_ ?_ ?_ ?_ ?_ ?_ _ _ _ _ _
  · intro cc h w
    show V m c (Pipeline.arrRef spec0 0) (((cfg0.win 0).blk t).view.emb (ix4 (0 : Fin 1) cc h w)) = _
    refine congrArg (V m c main_arg0) (funext fun a => Fin.ext ?_)
    have hcc := cc.isLt
    match a with
    | ⟨0, _⟩ => show win0_0.index t (0 : Fin 4) * 1 + 1 * 0 = win0_7.index t (0 : Fin 5); omega
    | ⟨1, _⟩ => show win0_0.index t (1 : Fin 4) * 4 + 1 * cc.val = win0_7.index t (2 : Fin 5) * 4 + cc.val; omega
    | ⟨2, _⟩ => show win0_0.index t (2 : Fin 4) * 512 + 1 * h.val = h.val; omega
    | ⟨3, _⟩ => show win0_0.index t (3 : Fin 4) * 512 + 1 * w.val = w.val; omega
  · intro cc
    show V m c (Pipeline.arrRef spec0 1) (((cfg0.win 1).blk t).view.emb (ix4 (0 : Fin 1) cc (0 : Fin 1) (0 : Fin 1))) = _
    refine congrArg (V m c main_arg1) (funext fun a => Fin.ext ?_)
    have hcc := cc.isLt
    match a with
    | ⟨0, _⟩ => show win0_1.index t (0 : Fin 4) * 1 + 1 * 0 = 0; omega
    | ⟨1, _⟩ => show win0_1.index t (1 : Fin 4) * 4 + 1 * cc.val = win0_7.index t (2 : Fin 5) * 4 + cc.val; omega
    | ⟨2, _⟩ => show win0_1.index t (2 : Fin 4) * 1 + 1 * 0 = 0; omega
    | ⟨3, _⟩ => show win0_1.index t (3 : Fin 4) * 1 + 1 * 0 = 0; omega
  · intro cc
    show V m c (Pipeline.arrRef spec0 2) (((cfg0.win 2).blk t).view.emb (ix4 (0 : Fin 1) cc (0 : Fin 1) (0 : Fin 1))) = _
    refine congrArg (V m c main_arg2) (funext fun a => Fin.ext ?_)
    have hcc := cc.isLt
    match a with
    | ⟨0, _⟩ => show win0_2.index t (0 : Fin 4) * 1 + 1 * 0 = 0; omega
    | ⟨1, _⟩ => show win0_2.index t (1 : Fin 4) * 4 + 1 * cc.val = win0_7.index t (2 : Fin 5) * 4 + cc.val; omega
    | ⟨2, _⟩ => show win0_2.index t (2 : Fin 4) * 1 + 1 * 0 = 0; omega
    | ⟨3, _⟩ => show win0_2.index t (3 : Fin 4) * 1 + 1 * 0 = 0; omega
  · intro cc
    show V m c (Pipeline.arrRef spec0 3) (((cfg0.win 3).blk t).view.emb (ix4 (0 : Fin 1) cc (0 : Fin 1) (0 : Fin 1))) = _
    refine congrArg (V m c main_arg3) (funext fun a => Fin.ext ?_)
    have hcc := cc.isLt
    match a with
    | ⟨0, _⟩ => show win0_3.index t (0 : Fin 4) * 1 + 1 * 0 = 0; omega
    | ⟨1, _⟩ => show win0_3.index t (1 : Fin 4) * 4 + 1 * cc.val = win0_7.index t (2 : Fin 5) * 4 + cc.val; omega
    | ⟨2, _⟩ => show win0_3.index t (2 : Fin 4) * 1 + 1 * 0 = 0; omega
    | ⟨3, _⟩ => show win0_3.index t (3 : Fin 4) * 1 + 1 * 0 = 0; omega
  · intro cc
    show V m c (Pipeline.arrRef spec0 4) (((cfg0.win 4).blk t).view.emb (ix4 (0 : Fin 1) cc (0 : Fin 1) (0 : Fin 1))) = _
    refine congrArg (V m c main_arg4) (funext fun a => Fin.ext ?_)
    have hcc := cc.isLt
    match a with
    | ⟨0, _⟩ => show win0_4.index t (0 : Fin 4) * 1 + 1 * 0 = 0; omega
    | ⟨1, _⟩ => show win0_4.index t (1 : Fin 4) * 4 + 1 * cc.val = win0_7.index t (2 : Fin 5) * 4 + cc.val; omega
    | ⟨2, _⟩ => show win0_4.index t (2 : Fin 4) * 1 + 1 * 0 = 0; omega
    | ⟨3, _⟩ => show win0_4.index t (3 : Fin 4) * 1 + 1 * 0 = 0; omega
  · intro cc
    show V m c (Pipeline.arrRef spec0 5) (((cfg0.win 5).blk t).view.emb (ix4 (0 : Fin 1) cc (0 : Fin 1) (0 : Fin 1))) = _
    refine congrArg (V m c main_arg5) (funext fun a => Fin.ext ?_)
    have hcc := cc.isLt
    match a with
    | ⟨0, _⟩ => show win0_5.index t (0 : Fin 4) * 1 + 1 * 0 = 0; omega
    | ⟨1, _⟩ => show win0_5.index t (1 : Fin 4) * 4 + 1 * cc.val = win0_7.index t (2 : Fin 5) * 4 + cc.val; omega
    | ⟨2, _⟩ => show win0_5.index t (2 : Fin 4) * 1 + 1 * 0 = 0; omega
    | ⟨3, _⟩ => show win0_5.index t (3 : Fin 4) * 1 + 1 * 0 = 0; omega
  · intro cc
    show V m c (Pipeline.arrRef spec0 6) (((cfg0.win 6).blk t).view.emb (ix4 (0 : Fin 1) cc (0 : Fin 1) (0 : Fin 1))) = _
    refine congrArg (V m c main_arg6) (funext fun a => Fin.ext ?_)
    have hcc := cc.isLt
    match a with
    | ⟨0, _⟩ => show win0_6.index t (0 : Fin 4) * 1 + 1 * 0 = 0; omega
    | ⟨1, _⟩ => show win0_6.index t (1 : Fin 4) * 4 + 1 * cc.val = win0_7.index t (2 : Fin 5) * 4 + cc.val; omega
    | ⟨2, _⟩ => show win0_6.index t (2 : Fin 4) * 1 + 1 * 0 = 0; omega
    | ⟨3, _⟩ => show win0_6.index t (3 : Fin 4) * 1 + 1 * 0 = 0; omega

/-- An index of the array is in point `t`'s block iff each coordinate is in the block's range on its axis. -/
theorem mem_blk (t : Fin cfg0.N) (i : S2x3x128x512x512.Idx) :
    i ∈ ((cfg0.win 7).blk t).view.set ↔ ∀ a : Fin 5, win0_7.index t a * S1x3x4x512x512.size a ≤ (i a).val
      ∧ (i a).val < win0_7.index t a * S1x3x4x512x512.size a + S1x3x4x512x512.size a := by
  show i ∈ ((View.whole main_v0).slice (win0_7.rect t)).set ↔ _
  rw [View.set_slice_whole, Rect.mem_set_unit]
  exact Iff.rfl

/-- THE BLOCKS TILE THE ARRAY: index `(b, s, c, h, w)` lies in the block of the point of batch entry `b` and channel
    group `c / 4`. -/
theorem cover (i : S2x3x128x512x512.Idx) :
    ∃ t : Fin cfg0.N, (cfg0.win 7).flush t = true ∧ i ∈ ((cfg0.win 7).blk t).view.set := by
  have hi0 : (i 0).val < 2 := (i 0).isLt
  have hi1 : (i 1).val < 3 := (i 1).isLt
  have hi2 : (i 2).val < 128 := (i 2).isLt
  have hi3 : (i 3).val < 512 := (i 3).isLt
  have hi4 : (i 4).val < 512 := (i 4).isLt
  obtain ⟨t, ht⟩ := idx_onto ⟨(i 0).val, hi0⟩ ⟨(i 2).val / 4, by omega⟩
  have q0 : win0_7.index t (0 : Fin 5) = (i 0).val := congrFun ht 0
  have q1 : win0_7.index t (1 : Fin 5) = 0 := congrFun ht 1
  have q2 : win0_7.index t (2 : Fin 5) = (i 2).val / 4 := congrFun ht 2
  have q3 : win0_7.index t (3 : Fin 5) = 0 := congrFun ht 3
  have q4 : win0_7.index t (4 : Fin 5) = 0 := congrFun ht 4
  refine ⟨t, flush0_7 t, ?_⟩
  rw [mem_blk]
  intro a
  match a with
  | ⟨0, _⟩ => show win0_7.index t (0 : Fin 5) * 1 ≤ (i 0).val ∧ (i 0).val < win0_7.index t (0 : Fin 5) * 1 + 1; omega
  | ⟨1, _⟩ => show win0_7.index t (1 : Fin 5) * 3 ≤ (i 1).val ∧ (i 1).val < win0_7.index t (1 : Fin 5) * 3 + 3; omega
  | ⟨2, _⟩ => show win0_7.index t (2 : Fin 5) * 4 ≤ (i 2).val ∧ (i 2).val < win0_7.index t (2 : Fin 5) * 4 + 4; omega
  | ⟨3, _⟩ => show win0_7.index t (3 : Fin 5) * 512 ≤ (i 3).val ∧ (i 3).val < win0_7.index t (3 : Fin 5) * 512 + 512; omega
  | ⟨4, _⟩ => show win0_7.index t (4 : Fin 5) * 512 ≤ (i 4).val ∧ (i 4).val < win0_7.index t (4 : Fin 5) * 512 + 512; omega

/-- THE ARRAY after the run: the specification's stacked array of the argument arrays. -/
theorem final (c : Dev nD) : (dats m 0 c).arrAt 7 cfg0.N = stackedOf m c :=
  (dats m 0 c).arrAt_eq_of_cover 7 (stackedOf m c) (fun t _ => flushed_eq m c t) cover

end Cert.KernelIdeal.ArrayValue

end
-- ==== Proof.KernelRun.lean ====
/-
  The kernel's run, with its result named.

  After the region the program reshapes the kernel's array `[2, 3, 128, 512, 512]` to `[2, 384, 512, 512]`, merging
  the slot axis with the channel axis: entry `(b, k, h, w)` of the result is entry `(b, k / 128, k % 128, h, w)` of the
  array (the two have the same row-major position).  With the array the specification's stacked array, the result
  is the specification's result of the arguments; the argument arrays are left as they were.
-/
import proofs.«148511_j81209241632974_1_alg».proof.Proof.KernelArray
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.ShloMosaic.ValueIdx
open Idealize.SL.Sem Cert.TriNorm Idealize.ShloMosaic.StableHlo Cert.KernelIdeal.ArrayValue

variable (m : (ℓ : Loc nD τ sig) → Buf (Elt Ideal) ℓ) (ρ : Dev nD → PrngReg)

/-- The specification's result of the argument arrays of memory `m`. -/
abbrev resultOf (c : Dev nD) : S2x384x512x512.Idx → EReal :=
  result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The program's result buffer after the lines that follow the region: the reshape of the region's array. -/
theorem tail_eq (c : Dev nD) :
    Pipeline.afterTail₀ cfgs (dats m) 0 (V0 m) [hostOps1] c main_v1 = resultOf m c := by
  unfold Pipeline.afterTail₀
  show StableHlo.after hostOps1 _ (Proc.devRef .tc main_v1) = _
  after_results
  have harr : Pipeline.withArrays (cfgs 0).spec c (V0 m c) (fun w => (dats m 0 c).arrAt w (cfgs 0).N)
      (Proc.devRef .tc main_v0) = stackedOf m c :=
    (Pipeline.withArrays_arr spec0 launch0.win.arr_inj c _ _ 7).trans (final m c)
  funext j
  show shapeCast S2x384x512x512 (Pipeline.withArrays (cfgs 0).spec c (V0 m c)
      (fun w => (dats m 0 c).arrAt w (cfgs 0).N) (Proc.devRef .tc main_v0))
      shapeCasts_S2x3x128x512x512_S2x384x512x512 j = resultOf m c j
  have hj0 : (j 0).val < 2 := (j 0).isLt
  have hj1 : (j 1).val < 384 := (j 1).isLt
  have hj2 : (j 2).val < 512 := (j 2).isLt
  have hj3 : (j 3).val < 512 := (j 3).isLt
  refine (shapeCast_apply _ shapeCasts_S2x3x128x512x512_S2x384x512x512 j
    (ix5 (⟨(j 0).val, hj0⟩ : Fin 2) (⟨(j 1).val / 128, by omega⟩ : Fin 3)
      (⟨(j 1).val % 128, Nat.mod_lt _ (by decide)⟩ : Fin 128) (⟨(j 2).val, hj2⟩ : Fin 512) (⟨(j 3).val, hj3⟩ : Fin 512)) ?_).trans
    ((congrFun harr _).trans ?_)
  · rw [Shape.rowMajor_val_five, Shape.rowMajor_val_four]
    show (((((j 0).val * 3 + (j 1).val / 128) * 128 + (j 1).val % 128) * 512 + (j 2).val) * 512 + (j 3).val)
      = ((((j 0).val * 384 + (j 1).val) * 512 + (j 2).val) * 512 + (j 3).val)
    omega
  · rfl

/-- THE KERNEL'S RUN: every weakly fair execution terminates with the result buffer at the specification's result
    of the argument arrays, and the argument arrays unchanged. -/
theorem run : θ_run defs (onTc (τ := τ) (main (F := Ideal))) ⟨m, fun _ => 0, ρ⟩ (fun r => ∀ c : Dev nD,
      r.2.mem ((c.tc : Thread nD τ).loc main_v1) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.RunValue

end
-- ==== Proof.RefValue.lean ====
/-
  The reference computes the specification.

  The reference normalises the whole batch at once: for each of the three axis choices it takes the mean
  (a sum over the axis, or over both plane axes, divided by the printed count), centres, squares, takes the
  mean again for the variance, and forms  γ · (x − μ) / (√(v + ε) + ε) + β  with the per-channel scale and shift
  broadcast over the batch and the plane; it then joins the three results along the channel axis in the order
  instance, row, column.  Read at an entry `(b, c, h, w)`, each of the three is the specification's norm of plane
  `(b, c)` — its sums are the row's, the column's, the plane's — and the joined array at channel `k` is piece
  `k / 128` at channel `k % 128`: the specification's result.
-/
import proofs.«148511_j81209241632974_1_alg».proof.Proof.Gen.ReferenceIdeal.Read
import proofs.«148511_j81209241632974_1_alg».proof.Proof.Spec
import proofs.«148511_j81209241632974_1_alg».proof.Proof.LibPlaneSum

set_option maxRecDepth 16384

noncomputable section

namespace Cert.ReferenceIdeal.RefValue

open Cert.ReferenceIdeal Cert.ReferenceIdeal.Gen Cert.ReferenceIdeal.Read Idealize.ShloMosaic Idealize.ShloMosaic.ValueIdx
open Cert.TriNorm Cert.Lib.PlaneSum

/-! ## The index maps of the broadcasts and sums, at coordinates

Each map keeps the coordinates of the axes it keeps, puts `0` on a unit axis, and a sum's map inserts the
summation variable on the summed axis. -/

local macro "coords2" : tactic =>
  `(tactic| (funext a; match a with | ⟨0, _⟩ => rfl | ⟨1, _⟩ => rfl))
local macro "coords3" : tactic =>
  `(tactic| (funext a; match a with | ⟨0, _⟩ => rfl | ⟨1, _⟩ => rfl | ⟨2, _⟩ => rfl))
local macro "coords4" : tactic =>
  `(tactic| (funext a; match a with | ⟨0, _⟩ => rfl | ⟨1, _⟩ => rfl | ⟨2, _⟩ => rfl | ⟨3, _⟩ => rfl))

section Maps
variable (b : Fin 2) (c : Fin 128) (h w k : Fin 512) (u u' : Fin 1)

-- the row statistics: [2,128,512] ↔ [2,128,512,1] ↔ [2,128,512,512]
theorem m0 : idx_main_v0 (ix3 b c h) k = ix4 b c h k := by coords4
theorem m1 : idx_main_v1 (ix4 b c h u) = ix3 b c h := by coords3
theorem m4 : idx_main_v4 (ix4 b c h w) = ix4 b c h (0 : Fin 1) := by coords4
theorem m7 : idx_main_v7 (ix3 b c h) k = ix4 b c h k := by coords4
theorem m8 : idx_main_v8 (ix4 b c h u) = ix3 b c h := by coords3
theorem m11 : idx_main_v11 (ix4 b c h w) = ix4 b c h (0 : Fin 1) := by coords4
theorem m20 : idx_main_v20 (ix4 b c h w) = ix4 b c h (0 : Fin 1) := by coords4
-- the column statistics: [2,128,512] ↔ [2,128,1,512] ↔ [2,128,512,512]
theorem m24 : idx_main_v24 (ix3 b c w) k = ix4 b c k w := by coords4
theorem m25 : idx_main_v25 (ix4 b c u w) = ix3 b c w := by coords3
theorem m28 : idx_main_v28 (ix4 b c h w) = ix4 b c (0 : Fin 1) w := by coords4
theorem m31 : idx_main_v31 (ix3 b c w) k = ix4 b c k w := by coords4
theorem m32 : idx_main_v32 (ix4 b c u w) = ix3 b c w := by coords3
theorem m35 : idx_main_v35 (ix4 b c h w) = ix4 b c (0 : Fin 1) w := by coords4
theorem m44 : idx_main_v44 (ix4 b c h w) = ix4 b c (0 : Fin 1) w := by coords4
-- the plane statistics: [2,128] ↔ [2,128,1,1] ↔ [2,128,512,512]
theorem m49 : idx_main_v49 (ix4 b c u u') = ix2 b c := by coords2
theorem m52 : idx_main_v52 (ix4 b c h w) = ix4 b c (0 : Fin 1) (0 : Fin 1) := by coords4
theorem m56 : idx_main_v56 (ix4 b c u u') = ix2 b c := by coords2
theorem m59 : idx_main_v59 (ix4 b c h w) = ix4 b c (0 : Fin 1) (0 : Fin 1) := by coords4
theorem m68 : idx_main_v68 (ix4 b c h w) = ix4 b c (0 : Fin 1) (0 : Fin 1) := by coords4
-- the per-channel parameters: [1,128,1,1] → [2,128,512,512]
theorem m13 : idx_main_v13 (ix4 b c h w) = ix4 (0 : Fin 1) c (0 : Fin 1) (0 : Fin 1) := by coords4
theorem m22 : idx_main_v22 (ix4 b c h w) = ix4 (0 : Fin 1) c (0 : Fin 1) (0 : Fin 1) := by coords4
theorem m37 : idx_main_v37 (ix4 b c h w) = ix4 (0 : Fin 1) c (0 : Fin 1) (0 : Fin 1) := by coords4
theorem m46 : idx_main_v46 (ix4 b c h w) = ix4 (0 : Fin 1) c (0 : Fin 1) (0 : Fin 1) := by coords4
theorem m61 : idx_main_v61 (ix4 b c h w) = ix4 (0 : Fin 1) c (0 : Fin 1) (0 : Fin 1) := by coords4
theorem m70 : idx_main_v70 (ix4 b c h w) = ix4 (0 : Fin 1) c (0 : Fin 1) (0 : Fin 1) := by coords4

end Maps

variable (X : (⟨S2x128x512x512, .f32⟩ : BufTy).Contents (Elt Ideal)) (g bta : (⟨S1x128x1x1, .f32⟩ : BufTy).Contents (Elt Ideal))

/-! ## The two sums over a whole plane -/

/-- The sum of the input over both plane axes, at `(b, c)`: the initial value plus the double sum over the plane. -/
theorem planeSum_apply (b : Fin 2) (c : Fin 128) :
    val_main_v48 (F := Ideal) X (ix2 b c)
      = (val_main_cst_11 (F := Ideal)) (Shape.Idx.first h_S_) + ∑ h : Fin 512, ∑ w : Fin 512, X (ix4 b c h w) := by
  unfold val_main_v48
  simp only [Host.reduceAdd, Ideal.hostReduceAdd_def]
  exact hostReduceAdd_planes reducesTo_S2x128x512x512_S2x128_d2_3 X _ (ix2 b c)

/-- The sum of the squared deviations over both plane axes, at `(b, c)`. -/
theorem planeSqSum_apply (b : Fin 2) (c : Fin 128) :
    val_main_v55 (F := Ideal) X (ix2 b c)
      = (val_main_cst_13 (F := Ideal)) (Shape.Idx.first h_S_)
        + ∑ h : Fin 512, ∑ w : Fin 512, val_main_v54 (F := Ideal) X (ix4 b c h w) := by
  unfold val_main_v55
  simp only [Host.reduceAdd, Ideal.hostReduceAdd_def]
  exact hostReduceAdd_planes reducesTo_S2x128x512x512_S2x128_d2_3 (val_main_v54 (F := Ideal) X) _ (ix2 b c)

/-! ## The three branches -/

/-- The row branch at `(b, c, h, w)` is the row norm of plane `(b, c)`. -/
theorem row_apply (b : Fin 2) (c : Fin 128) (h w : Fin 512) :
    val_main_v23 (F := Ideal) X g bta (ix4 b c h w) = rowNorm (plane (B := 2) (C := 128) X b c) (par g c) (par bta c) h w := by
  simp only [val_main_v23_apply, val_main_v22_apply, val_main_v21_apply, val_main_v20_apply, val_main_v19_apply,
    val_main_v18_apply, val_main_v17_apply, val_main_v16_apply, val_main_v15_apply, val_main_v14_apply, val_main_v13_apply,
    val_main_v12_apply, val_main_v11_apply, val_main_v10_apply, val_main_v9_apply, val_main_v8_apply, val_main_v7_apply,
    val_main_v6_apply, val_main_v5_apply, val_main_v4_apply, val_main_v3_apply, val_main_v2_apply, val_main_v1_apply,
    val_main_v0_apply, val_main_cst_apply, val_main_cst_0_apply, val_main_cst_1_apply, val_main_cst_2_apply,
    val_main_cst_3_apply, val_main_cst_4_apply,
    m0, m1, m4, m7, m8, m11, m20, m13, m22,
    Ideal.addf_def, Ideal.subf_def, Ideal.mulf_def, Ideal.hostDivf_def, Ideal.hostUnary_sqrt_def, Ideal.ofBits_def,
    Ideal.ofBits_zero_f32, zero_add]
  rfl

/-- The column branch at `(b, c, h, w)` is the column norm of plane `(b, c)`. -/
theorem col_apply (b : Fin 2) (c : Fin 128) (h w : Fin 512) :
    val_main_v47 (F := Ideal) X g bta (ix4 b c h w) = colNorm (plane (B := 2) (C := 128) X b c) (par g c) (par bta c) h w := by
  simp only [val_main_v47_apply, val_main_v46_apply, val_main_v45_apply, val_main_v44_apply, val_main_v43_apply,
    val_main_v42_apply, val_main_v41_apply, val_main_v40_apply, val_main_v39_apply, val_main_v38_apply, val_main_v37_apply,
    val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_main_cst_5_apply, val_main_cst_6_apply, val_main_cst_7_apply, val_main_cst_8_apply,
    val_main_cst_9_apply, val_main_cst_10_apply,
    m24, m25, m28, m31, m32, m35, m44, m37, m46,
    Ideal.addf_def, Ideal.subf_def, Ideal.mulf_def, Ideal.hostDivf_def, Ideal.hostUnary_sqrt_def, Ideal.ofBits_def,
    Ideal.ofBits_zero_f32, zero_add]
  rfl

/-- The instance branch at `(b, c, h, w)` is the instance norm of plane `(b, c)`. -/
theorem ins_apply (b : Fin 2) (c : Fin 128) (h w : Fin 512) :
    val_main_v71 (F := Ideal) X g bta (ix4 b c h w) = insNorm (plane (B := 2) (C := 128) X b c) (par g c) (par bta c) h w := by
  simp only [val_main_v71_apply, val_main_v70_apply, val_main_v69_apply, val_main_v68_apply, val_main_v67_apply,
    val_main_v66_apply, val_main_v65_apply, val_main_v64_apply, val_main_v63_apply, val_main_v62_apply, val_main_v61_apply,
    val_main_v60_apply, val_main_v59_apply, val_main_v58_apply, val_main_v57_apply, val_main_v56_apply,
    val_main_v54_apply, val_main_v53_apply, val_main_v52_apply, val_main_v51_apply, val_main_v50_apply, val_main_v49_apply,
    val_main_cst_11_apply, val_main_cst_12_apply, val_main_cst_13_apply, val_main_cst_14_apply,
    val_main_cst_15_apply, val_main_cst_16_apply,
    m49, m52, m56, m59, m68, m61, m70, planeSum_apply, planeSqSum_apply,
    Ideal.addf_def, Ideal.subf_def, Ideal.mulf_def, Ideal.hostDivf_def, Ideal.hostUnary_sqrt_def, Ideal.ofBits_def,
    Ideal.ofBits_zero_f32, zero_add]
  rfl

/-! ## The three branches joined along the channel axis -/

/-- The reference's result is the specification's: at output channel `k` the joined array reads the piece whose
    span of 128 channels holds `k` — the instance branch below 128, the row branch from 128, the column branch
    from 256 — at channel `k` less the spans before it. -/
theorem result_eq (X : (⟨S2x128x512x512, .f32⟩ : BufTy).Contents (Elt Ideal))
    (gR bR gC bC gI bI : (⟨S1x128x1x1, .f32⟩ : BufTy).Contents (Elt Ideal)) :
    val_main_v72 (F := Ideal) X gR bR gC bC gI bI = result X gR bR gC bC gI bI := by
  funext j
  obtain ⟨b, k, h, w, rfl⟩ : ∃ (b : Fin 2) (k : Fin 384) (h w : Fin 512), j = ix4 b k h w :=
    ⟨j 0, j 1, j 2, j 3, eq_ix4 j⟩
  unfold val_main_v72
  have hk : k.val < 384 := k.isLt
  rcases Nat.lt_or_ge k.val 128 with h0 | h0
  · rw [result_apply X gR bR gC bC gI bI b k h w 0 ⟨k.val, h0⟩ (by show k.val = 128 * 0 + k.val; omega), stackedAt_zero]
    refine (concatenate_apply_piece _ _ _ (ix4 b k h w) 0 (by show 0 < 3; omega) S2x128x512x512
      (val_main_v71 (F := Ideal) X gI bI) rfl rfl 0 rfl (ix4 b ⟨k.val, h0⟩ h w) ?_ ?_).trans
      (ins_apply X gI bI b ⟨k.val, h0⟩ h w)
    · intro a ha
      match a with
      | ⟨0, _⟩ => rfl
      | ⟨1, _⟩ => exact absurd rfl ha
      | ⟨2, _⟩ => rfl
      | ⟨3, _⟩ => rfl
    · show 0 + k.val = k.val; omega
  · rcases Nat.lt_or_ge k.val 256 with h1 | h1
    · have hc : k.val - 128 < 128 := by omega
      rw [result_apply X gR bR gC bC gI bI b k h w 1 ⟨k.val - 128, hc⟩ (by show k.val = 128 * 1 + (k.val - 128); omega),
        stackedAt_one]
      refine (concatenate_apply_piece _ _ _ (ix4 b k h w) 1 (by show 1 < 3; omega) S2x128x512x512
        (val_main_v23 (F := Ideal) X gR bR) rfl rfl 128 rfl (ix4 b ⟨k.val - 128, hc⟩ h w) ?_ ?_).trans
        (row_apply X gR bR b ⟨k.val - 128, hc⟩ h w)
      · intro a ha
        match a with
        | ⟨0, _⟩ => rfl
        | ⟨1, _⟩ => exact absurd rfl ha
        | ⟨2, _⟩ => rfl
        | ⟨3, _⟩ => rfl
      · show 128 + (k.val - 128) = k.val; omega
    · have hc : k.val - 256 < 128 := by omega
      rw [result_apply X gR bR gC bC gI bI b k h w 2 ⟨k.val - 256, hc⟩ (by show k.val = 128 * 2 + (k.val - 256); omega),
        stackedAt_two]
      refine (concatenate_apply_piece _ _ _ (ix4 b k h w) 2 (by show 2 < 3; omega) S2x128x512x512
        (val_main_v47 (F := Ideal) X gC bC) rfl rfl 256 rfl (ix4 b ⟨k.val - 256, hc⟩ h w) ?_ ?_).trans
        (col_apply X gC bC b ⟨k.val - 256, hc⟩ h w)
      · intro a ha
        match a with
        | ⟨0, _⟩ => rfl
        | ⟨1, _⟩ => exact absurd rfl ha
        | ⟨2, _⟩ => rfl
        | ⟨3, _⟩ => rfl
      · show 256 + (k.val - 256) = k.val; omega

end Cert.ReferenceIdeal.RefValue

end
-- ==== Proof.lean ====
/-
  The kernel normalises every 512 × 512 plane of a batch `x[b, c, ·, ·]` three ways — against the mean and biased
  variance of the whole plane (instance), of each row, of each column — always as
  `γ · (x − μ) / (√(v + ε) + ε) + β` with per-channel `γ`, `β`, and writes the three results as three slots of
  `[b, slot, c, h, w]`, which a final reshape merges into `[b, 3 · 128, h, w]`.  The reference computes the same
  three normalisations on the whole batch and concatenates them along the channel axis in the same order.

  Over the extended reals the two are one function (Proof/Spec.lean):

    * a grid point's output block is the specification's stacked array of the four planes it loaded
      (Proof/KernelBlock.lean: the kernel's three sums are the row, column and plane sums — the last one a sum
      over two axes at once, read as a double sum in Proof/LibPlaneSum.lean; the keepdims casts and broadcasts
      are read at coordinates in Proof/LibPlaneLayout.lean);
    * a plane's normalisations depend on that plane and its channel's parameters only, so the blocks are blocks
      of the stacked array of the whole arguments, and they tile it (Proof/KernelArray.lean);
    * the reshape puts slot `k / 128` of channel `k % 128` at output channel `k` (Proof/KernelRun.lean);
    * each of the reference's three branches is the same expression entry by entry, and its concatenation puts
      piece `k / 128` at channel `k % 128` there too (Proof/RefValue.lean).

  No law of arithmetic is used beyond reading both sums as sums over the same rows, columns and planes: the two
  programs apply the same operations in the same order to the same sums, so the inputs' finiteness is never
  opened.  The three frames are the programs' runs with the value dropped; the idealisation rewrote nothing.
-/
import proofs.«148511_j81209241632974_1_alg».proof.Defs
import proofs.«148511_j81209241632974_1_alg».proof.Proof.Gen.Kernel
import proofs.«148511_j81209241632974_1_alg».proof.Proof.Gen.Kernel.Skeleton
import proofs.«148511_j81209241632974_1_alg».proof.Proof.Gen.Kernel.Launch
import proofs.«148511_j81209241632974_1_alg».proof.Proof.Gen.Kernel.Points
import proofs.«148511_j81209241632974_1_alg».proof.Proof.Gen.Kernel.Frame
import proofs.«148511_j81209241632974_1_alg».proof.Proof.Gen.KernelIdeal
import proofs.«148511_j81209241632974_1_alg».proof.Proof.Gen.KernelIdeal.Skeleton
import proofs.«148511_j81209241632974_1_alg».proof.Proof.Gen.KernelIdeal.Launch
import proofs.«148511_j81209241632974_1_alg».proof.Proof.Gen.KernelIdeal.Points
import proofs.«148511_j81209241632974_1_alg».proof.Proof.Gen.KernelIdeal.Frame
import proofs.«148511_j81209241632974_1_alg».proof.Proof.Gen.ReferenceIdeal
import proofs.«148511_j81209241632974_1_alg».proof.Proof.Gen.Pre_finite_inputs
import proofs.«148511_j81209241632974_1_alg».proof.Proof.Gen.ReferenceIdeal.Run
import proofs.«148511_j81209241632974_1_alg».proof.Proof.Gen.ReferenceIdeal.Read
import proofs.«148511_j81209241632974_1_alg».proof.Proof.KernelRun
import proofs.«148511_j81209241632974_1_alg».proof.Proof.RefValue
import Idealize.ShloMosaic.Adequacy
import Idealize.ShloMosaic.Init

noncomputable section

namespace Cert.Proof

open Idealize.ShloMosaic Idealize.SL.Sem

/-- The word-level kernel and the idealised kernel run to the end with their arguments unchanged. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run, with the value it computes dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments both programs end with the specification's result of those
    arguments: the kernel by its run (the stacked array, reshaped), the reference by its run (the three branches,
    concatenated). -/
theorem algebraic : Cert.algebraic_KernelIdeal_ReferenceIdeal := by
  intro m ρ m' ρ' _ hagree
  refine ⟨fun c => Cert.KernelIdeal.RunValue.resultOf m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [Cert.ReferenceIdeal.Read.val_main_v72_eq, Cert.ReferenceIdeal.RefValue.result_eq, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
